-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S_ : Shape := ⟨0, ![]⟩
abbrev S4096x2 : Shape := ⟨2, ![4096, 2]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  reducesTo_S4096x2x128_S4096x2_d2 : S4096x2x128.ReducesTo [2] S4096x2
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x2x128 .f32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_v4 : FVec F S4096x2x128 .f32 := mulf main_arg0 main_arg0
  let main_cst_0 : FVec F S_ .f32 := constant S_ .f32 0x00000000#32
  let main_v5 : FVec F S4096x2 .f32 := (fun x v => Host.reduceAdd x v reducesTo_S4096x2x128_S4096x2_d2 h_S_) main_v4 main_cst_0
  let main_cst_1 : FVec F S_ .f32 := constant S_ .f32 0x00000000#32
  let main_v6 : FVec F S4096x2 .f32 := broadcastInDim S4096x2 ![] bcast_S_S4096x2 main_cst_1
  let main_v7 : IVec S4096x2 1 := cmpf .ogt main_v5 main_v6
  let main_c_2 : IVec S_ 1 := constantI S_ 1 1#1
  let main_v8 : IVec S_ 1 := (fun x v => Host.reduce IntOp.andi x v reducesTo_S4096x2_S_d0_1 h_S_) main_v7 main_c_2
  let main_v9 : IVec S_ 1 := andi main_v3 main_v8
  main_v9
-- ==== Kernel.lean ====
abbrev S4096x2x128 : Shape := ⟨3, ![4096, 2, 128]⟩
abbrev S2x4096x128 : Shape := ⟨3, ![2, 4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S4096x128 : Shape := ⟨2, ![4096, 128]⟩
abbrev S4096 : Shape := ⟨1, ![4096]⟩
abbrev S256x128 : Shape := ⟨2, ![256, 128]⟩
abbrev S256x1 : Shape := ⟨2, ![256, 1]⟩
abbrev S128x8192 : Shape := ⟨2, ![128, 8192]⟩
abbrev S256x8192 : Shape := ⟨2, ![256, 8192]⟩
abbrev S256 : Shape := ⟨1, ![256]⟩

abbrev nBuf : Space → Nat
  | .hbm => 36
  | .vmem => 7
  | .smem => 0
  | _ => 0

abbrev bufTy : (tb : Table) → Fin (tcTables nBuf tb) → BufTy
  | .hbm, ⟨0, _⟩ => ⟨S4096x2x128, .f32⟩
  | .hbm, ⟨1, _⟩ => ⟨S2x4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x128, .bf16⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x2x128_S2x4096x128_1_0_2 : S4096x2x128.Transposes [1, 0, 2] S2x4096x128
  shapeCasts_S2x4096x128_S8192x128 : S2x4096x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  slices_S8192x128_S4096x128_0_0 : S8192x128.Slices ![0, 0] S4096x128
  slices_S8192x128_S4096x128_4096_0 : S8192x128.Slices ![4096, 0] S4096x128
  reducesTo_S4096x128_S4096_d1 : S4096x128.ReducesTo [1] S4096
  concatenates_S4096_S4096_S8192_d0 : Shape.Concatenates [S4096, S4096] S8192 0
  bcast_S_S8192 : S_.BroadcastsInDim S8192 (![] : Fin 0 → Fin S8192.rank)
  shapeCasts_S8192_S8192x1 : S8192.ShapeCasts S8192x1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  transposes_S8192x128_p1_0_S128x8192 : S8192x128.Transposes [1, 0] S128x8192
  reduces_S256x8192_S256 : S256x8192.Reduces [1] S256
  shapeCasts_S256_S256x1 : S256.ShapeCasts S256x1
  reduces_S256x128_S256 : S256x128.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  bcast_S_S8192x1 : S_.BroadcastsInDim S8192x1 (![] : Fin 0 → Fin S8192x1.rank)
  reducesTo_S8192x1_S_d0_1 : S8192x1.ReducesTo [0, 1] S_
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_v18) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2x128 : Shape := ⟨3, ![4096, 2, 128]⟩
abbrev S2x4096x128 : Shape := ⟨3, ![2, 4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩
abbrev S2x4096 : Shape := ⟨2, ![2, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S2x4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S4096x4096, .f32⟩
  | .hbm, ⟨38, _⟩ => ⟨S1x4096x1x4096, .f32⟩
  | .hbm, ⟨39, _⟩ => ⟨S2x4096x2x4096, .f32⟩
  | .hbm, ⟨40, _⟩ => ⟨S8192x8192, .f32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S2x4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  transposes_S4096x2x128_S2x4096x128_1_0_2 : S4096x2x128.Transposes [1, 0, 2] S2x4096x128
  shapeCasts_S2x4096x128_S8192x128 : S2x4096x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  bcast_S_S4096x4096 : S_.BroadcastsInDim S4096x4096 (![] : Fin 0 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelBody.lean ====
/-
  The kernel body of the one pallas_call, and the pipeline's proof data.

  The grid has 32 points. At point `t` the body is handed four staging buffers: the `t`-th block of 256 rows of the
  normalised rows (the queries), ALL 8192 normalised rows (the keys: the same array again, fetched once), the `t`-th
  block of 256 positive-pair distances, and the output block of 256 row losses. It loads the three inputs, stores one
  value — the skeleton's payload, a pure function of the three loads — over the whole output block, and touches
  nothing else. So after the body each input buffer still holds its block and the output buffer holds that payload.

  The queries and the keys are two windows on ONE array: the pipeline holds that array at two half shares, one per
  window, and every other array at the full share.
-/
import proofs.«144312_j54150947668039_2_alg».proof.Proof.Gen.Kernel.Launch
import proofs.«144312_j54150947668039_2_alg».proof.Proof.Gen.Kernel.Skeleton
import proofs.«144312_j54150947668039_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Every buffer of core `c` once the host operations before the region have run, from the launch contents `m`. -/
abbrev V0 (c : Dev nD) : Valuation τ sig (Elt F) :=
  StableHlo.after (List.flatten [hostOps0, hostOps0_1, hostOps0_2]) (fun b => m (c, b))

/-- The same, read at the TensorCore's references. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window that is
    not fetched at a point has not moved since it was. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole buffer -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rP : Rect S256x1 := Rect.unit (s := S256x1) ![0, 0] S256x1.size inb_S256x1_S256x1_0_0

/-- The output block after the body, from the three input blocks: its one store, of the payload of the three loads. -/
def out0_3 (x0 : Vec F S256x128 .bf16) (x1 : Vec F S8192x128 .bf16) (x2 : Vec F S256x1 .f32) : Vec F S256x1 .f32 :=
  View.canon [⟨rP, k0_pay1 (View.ld x0 rQ) (View.ld x1 rK) (View.ld x2 rP)⟩]

/-- The one store covers the block. -/
theorem cover0_3 (p0 : Vec F S256x1 .f32) (y : S256x1.Idx) :
    ∃ pc ∈ ([⟨rP, p0⟩] : List (View.Piece (Elt F) S256x1 .f32)), y ∈ pc.1.set :=
  View.cover_of_tiled [⟨rP, p0⟩] S256x1.size (by rfl) y

/-! ## The body's triple -/

set_option maxHeartbeats 1000000 in
/-- The body on whole staging memrefs — the inputs' at contents `x0`, `x1`, `x2`, the output's at anything — runs to its
    continuation holding the inputs' as they were and the output's at `out0_3` of them. -/
theorem sound_kernel (c : Dev nD) (E : Set ℕ) (i : grid0.Coords) (arg1 : Memref sig .tc .vmem S256x128 .bf16) (harg1 : arg1.IsWhole)
    (arg2 : Memref sig .tc .vmem S8192x128 .bf16) (harg2 : arg2.IsWhole) (arg3 : Memref sig .tc .vmem S256x1 .f32) (harg3 : arg3.IsWhole)
    (arg4 : Memref sig .tc .vmem S256x1 .f32) (harg4 : arg4.IsWhole)
    (x0 : Vec F S256x128 .bf16) (x1 : Vec F S8192x128 .bf16) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the scoped rest and
    the generator register, untouched; nothing owed; the array both the queries and the keys read held at two half
    shares, one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the whole program: host operations, the one pallas_call, host operations.

  The pallas_call reads the normalised rows through TWO windows, the 256-row query block and the resident
  8192-row key matrix: one array behind two windows. The pipeline therefore holds that array as its two half
  shares, one per window, where it holds every other array whole. `arrays_eq_bufs` says the four windows so held are
  the three distinct buffers behind them held whole: it deals the buffers to the pipeline when the region is entered,
  and gathers them again at its exit, where the seven host operations that follow run on every unscoped buffer —
  the entry contents, with the result array at what the 32 grid points wrote back. What the program leaves is then
  read off memory: the scalar result is the last host operation's value from those exit contents, and the argument
  array is untouched, no operation writing it.
-/
import proofs.«144312_j54150947668039_2_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows -/

theorem arrRefs_eq : Finset.univ.image (Pipeline.arrRef spec0) = ({main_v18, main_v17, main_v19} : Finset (Ref sig .tc)) := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

omit [FloatOps F] in
/-- A buffer whole at the full share is the same buffer at its two half shares. -/
theorem halves (c : Dev nD) (Vx : (b : Ref sig .tc) → Buf (Elt F) ((c.tc : Thread nD τ).loc b)) :
    (iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) : sProp 𝕄)
      = iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) := by
  have h1 : (iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) : sProp 𝕄)
      ⊢ iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) := by
    iintro ⟨H0, H1, H2, H3⟩
    isplitl [H0 H1]
    · iapply (pointsTo_share (PosShare.mem_left_op_right fullShare)).2
      isplitl [H0]; · iexact H0
      iexact H1
    isplitl [H2]; · iexact H2
    iexact H3
  have h2 : (iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) : sProp 𝕄)
      ⊢ iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) := by
    iintro ⟨H01, H2, H3⟩
    ihave H := (pointsTo_share (PosShare.mem_left_op_right fullShare)).1 $$ H01
    icases H with ⟨H0, H1⟩
    isplitl [H0]; · iexact H0
    isplitl [H1]; · iexact H1
    isplitl [H2]; · iexact H2
    iexact H3
  exact equiv_iff.mp ⟨h1, h2⟩

/-- The pipeline's four windows at contents `Fw` are the three distinct buffers behind them, each whole at the full
    share, at the same contents: the array the queries and the keys both read is held as its two half shares. -/
theorem arrays_eq_bufs (c : Dev nD) (Vx : (b : Ref sig .tc) → Buf (Elt F) ((c.tc : Thread nD τ).loc b))
    (Fw : (w : Fin cfg0.W) → Buf (Elt F) ((cfg0.win w).arr.view.loc (c.tc : Thread nD τ)))
    (hF : ∀ w, Fw w = Vx (Pipeline.arrRef spec0 w)) :
    ((dats m 0 c).arrays Fw : sProp 𝕄) = Pipeline.arrBufs spec0 c Vx := by
  unfold Dat.arrays Pipeline.arrBufs
  rw [bigSep_W0, arrRefs_eq, share0, share1, share2, share3,
    (arr_whole0 0).set_eq_univ, (arr_whole0 2).set_eq_univ, (arr_whole0 3).set_eq_univ,
    hF 0, hF 1, hF 2, hF 3,
    bigSep_insert (by decide), bigSep_insert (by decide), bigSep_singleton]
  exact halves c Vx

/-! ## The contents at the region's exit and after the host operations that follow it -/

/-- Every buffer at the region's exit: the entry contents, the result array at what the pipeline wrote back. -/
def Wexit (c : Dev nD) : Valuation τ sig (Elt F) :=
  Function.update (V0 m c) (Proc.devRef .tc main_v19) ((dats m 0 c).arrAt 3 cfg0.N)

/-- Every buffer when @main returns: the seven host operations after the region, from the exit contents. -/
def Wfin (c : Dev nD) : Valuation τ sig (Elt F) := StableHlo.after hostOps1 (Wexit m c)

abbrev Vexit (c : Dev nD) (b : Ref sig .tc) : Buf (Elt F) ((c : Thread nD τ).loc b) := Wexit m c (Proc.devRef .tc b)
abbrev Vfin (c : Dev nD) (b : Ref sig .tc) : Buf (Elt F) ((c : Thread nD τ).loc b) := Wfin m c (Proc.devRef .tc b)

theorem Wexit_out (c : Dev nD) : Wexit m c (Proc.devRef .tc main_v19) = (dats m 0 c).arrAt 3 cfg0.N := Function.update_self ..
theorem Wexit_of_ne (c : Dev nD) (b : Ref sig .tc) (h : b ≠ main_v19) : Wexit m c (Proc.devRef .tc b) = V0 m c (Proc.devRef .tc b) :=
  Function.update_of_ne (StableHlo.devRef_ne_of_ne h) ..

/-- The host operations after the region write none of the pipeline's arrays. -/
theorem tail_keeps (b : Ref sig .tc) (hb : b = main_v18 ∨ b = main_v17 ∨ b = main_v19 ∨ b = main_arg0) :
    ∀ op ∈ (hostOps1 (F := F)), Proc.devRef .tc b ∉ op.writes := by
  intro op hop
  rcases hb with rfl | rfl | rfl | rfl <;>
    (fin_cases hop <;> exact fun h => StableHlo.devRef_ne_of_ne (by decide) (Finset.mem_singleton.mp h))

theorem Wfin_keep (c : Dev nD) (b : Ref sig .tc) (hb : b = main_v18 ∨ b = main_v17 ∨ b = main_v19 ∨ b = main_arg0) :
    Wfin m c (Proc.devRef .tc b) = Wexit m c (Proc.devRef .tc b) :=
  StableHlo.after_of_forall_not_mem _ _ (tail_keeps b hb)

/-- Each window's array at the exit is the exit contents of the buffer behind it: an input array is never written. -/
theorem arrAt_exit (c : Dev nD) (w : Fin cfg0.W) : (dats m 0 c).arrAt w cfg0.N = Vexit m c (Pipeline.arrRef spec0 w) := by
  match w with
  | ⟨0, _⟩ => exact ((dats m 0 c).arrAt_in 0 rfl _).trans ((A_eq m c 0).trans (Wexit_of_ne m c _ (by decide)).symm)
  | ⟨1, _⟩ => exact ((dats m 0 c).arrAt_in 1 rfl _).trans ((A_eq m c 1).trans (Wexit_of_ne m c _ (by decide)).symm)
  | ⟨2, _⟩ => exact ((dats m 0 c).arrAt_in 2 rfl _).trans ((A_eq m c 2).trans (Wexit_of_ne m c _ (by decide)).symm)
  | ⟨3, _⟩ => exact (Wexit_out m c).symm

theorem arrAt_fin (c : Dev nD) (w : Fin cfg0.W) : (dats m 0 c).arrAt w cfg0.N = Vfin m c (Pipeline.arrRef spec0 w) := by
  rw [arrAt_exit]
  match w with
  | ⟨0, _⟩ => exact (Wfin_keep m c main_v18 (Or.inl rfl)).symm
  | ⟨1, _⟩ => exact (Wfin_keep m c main_v18 (Or.inl rfl)).symm
  | ⟨2, _⟩ => exact (Wfin_keep m c main_v17 (Or.inr (Or.inl rfl))).symm
  | ⟨3, _⟩ => exact (Wfin_keep m c main_v19 (Or.inr (Or.inr (Or.inl rfl)))).symm

/-- A buffer that is no window's array holds at the exit what it held at the entry. -/
theorem rest_exit (c : Dev nD) :
    (Pipeline.unscopedRest spec0 c (V m c) : sProp 𝕄) = Pipeline.unscopedRest spec0 c (Vexit m c) := by
  unfold Pipeline.unscopedRest
  refine bigSep_congr fun b hb => ?_
  have e := Wexit_of_ne m c b fun e => (Finset.mem_sdiff.mp hb).2 (Finset.mem_image.mpr ⟨3, Finset.mem_univ _, e ▸ rfl⟩)
  show ((c.tc : Thread nD τ).loc b ↦{fullShare} V0 m c (Proc.devRef .tc b) : sProp 𝕄)
    = ((c.tc : Thread nD τ).loc b ↦{fullShare} Wexit m c (Proc.devRef .tc b))
  rw [e]

/-- Every unscoped buffer held at a valuation: the buffers behind the windows' arrays, and the rest. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs (0 : Fin 1) winFacts₀0.arr_unscoped c _

/-! ## The run -/

/-- The buffers that bypass the region: the unscoped ones that are no window's array. -/
abbrev restSet : Finset (Ref sig .tc) := (Finset.univ.filter fun b : Ref sig .tc => ¬ b.isScoped) \ Finset.univ.image (Pipeline.arrRef spec0)

/-- The one pipeline, as a pipeline that prefetches no table, and the one admissible (empty) table contents. -/
abbrev pcsF : Fin 1 → Pipeline.PCfg sig Λ₀ (Elt F) := fun q => (cfgs q).toPCfg (Val := Elt F)
abbrev admF : (q : Fin 1) → (pcsF (F := F) q).Adm := fun q => (cfgs q).toPCfg_adm

/-- @main is three stretches of host operations, the region, and one more stretch. -/
theorem hmain : Pipeline.HMainPK (Ix := Unit) (Name := ℕ) (U := UR sig nD τ) (Lvl := ℕ)
    (pcsF (F := F)) 0 defs₀ Variants.none m (main (F := F))
    (V m) (fun _ => Pipeline.chain ([hostOps1].map StableHlo.seq)) :=
  Pipeline.hmainP_around (pcsF (F := F)) 0 defs₀ Variants.none m main
    [hostOps0, hostOps0_1, hostOps0_2] [hostOps1] ⟨hostOps0_sub, hostOps0_1_sub, hostOps0_2_sub⟩
    (List.forall_iff_forall_mem.mpr (by
      intro ops h; fin_cases h <;> exact List.forall_iff_forall_mem.mpr (by intro op h; fin_cases h <;> rfl)))
    (fun c => (main_chain c).trans rfl)

theorem cellOf_inj' : Function.Injective (cellOf (nD := nD) (τ := τ) (Pipeline.pin (pcsF (F := F)) (admF (F := F)))) := cellOf_inj

set_option backward.isDefEq.respectTransparency.types false in
/-- Every weakly fair execution of @main terminates, nothing faulting; at the end the result holds the last host
    operation's value computed from the exit contents, and the argument array holds what it was launched with. -/
theorem run_main : θ_run defs (onTc (τ := τ) (main (F := F))) ⟨m, fun _ => 0, ρ⟩ (fun r => ∀ c : Dev nD,
      r.2.mem ((c.tc : Thread nD τ).loc main_v23) = Vfin m c main_v23
      ∧ r.2.mem ((c.tc : Thread nD τ).loc main_arg0) = Vfin m c main_arg0) := by
  classical
  refine Pipeline.θ_run_region_pf_tail (pcsF (F := F)) (admF (F := F)) (dats m) ()
    (cellOf_inj' (F := F)) 0 winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp))
    (u₀ := initOf (Pipeline.cells (Pipeline.pin (pcsF (F := F)) (admF (F := F))) (cellOf_inj' (F := F))) (Pipeline.launchToks (Pipeline.pin (pcsF (F := F)) (admF (F := F))) (cellOf_inj' (F := F))))
    (hu₀ := ?hu) (V := V m) (hmain := hmain m)
    (hsplit := fun c => Entails.of_eq ((arrays_eq_bufs m c (V m c) _ fun w => A_eq m c w).symm))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Vfin m c))
    (hX := ?hX) (hin := ?hin) (hout := ?hout) (htail := ?htail)
    (QY := fun c s => ∀ b ∈ restSet, s.mem ((c.tc : Thread nD τ).loc b) = Vfin m c b)
    (hY := ?hY) (hQ := ?hQ)
  case hu =>
    iintro Hu; imodintro
    isplitl [Hu]
    · iapply (show (ownU _ : sProp 𝕄) ⊢ BI.own (emb₁ (initOf (Pipeline.cells (Pipeline.pin (pcsF (F := F)) (admF (F := F))) (cellOf_inj' (F := F))) (Pipeline.launchToks (Pipeline.pin (pcsF (F := F)) (admF (F := F))) (cellOf_inj' (F := F))))) from .rfl)
      iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr]; · iexact Hr
    iexact Hp
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRest
    imodintro
    iapply (pointsTo_read_all restSet (fun b => (c.tc : Thread nD τ).loc b) (Vfin m c) s')
    isplitl [HU] <;> iassumption
  case hQ =>
    intro s h c
    exact ⟨(h c).2.2 main_v23 (by decide), (h c).2.2 main_arg0 (by decide)⟩
  case htail =>
    intro c Q'
    have e1 := arrays_eq_bufs m c (Vexit m c) _ (arrAt_exit m c)
    have e2 := arrays_eq_bufs m c (Vfin m c) _ (arrAt_fin m c)
    have hsub' : ∀ ops ∈ [hostOps1 (F := F)], ∀ op ∈ ops, op.bufs ⊆ Pipeline.ucRefs τ sig := fun ops ho op h => by
      rw [List.mem_singleton] at ho; subst ho
      exact Pipeline.sub_ucRefs op ((List.forall_iff_forall_mem.mp hostOps1_sub) op h)
    have hfresh' : ∀ ops ∈ [hostOps1 (F := F)], ∀ op ∈ ops, op.fresh = ∅ := fun ops ho op h => by
      rw [List.mem_singleton] at ho; subst ho
      fin_cases h <;> rfl
    rw [← List.append_nil ([hostOps1 (F := F)].map StableHlo.seq)]
    iintro ⟨Hk, Hb, Ha, HZ⟩
    ihave Ha' := (Entails.of_eq e1) $$ Ha
    ihave HZ' := (Entails.of_eq (rest_exit m c)) $$ HZ
    ihave Hh := (Entails.of_eq (held_split c (Wexit m c)).symm) $$ [Ha' HZ']
    · isplitl [Ha']; · iexact Ha'
      iexact HZ'
    iapply (Pipeline.wp_seqs_then (pcsF (F := F)) defs₀ Variants.none c (Pipeline.ucRefs τ sig) [] [hostOps1] hsub' hfresh' (Wexit m c)) $$ [Hb Hh]
    · isplitl [Hb]; · iexact Hb
      iexact Hh
    iintro ⟨Hb, Hh⟩
    rw [Pipeline.chain_nil, wp_pure]
    imodintro
    iapply Hk
    ihave Hs := (Entails.of_eq (held_split c (StableHlo.after [hostOps1 (F := F)].flatten (Wexit m c)))) $$ Hh
    icases Hs with ⟨Ha2, HZ2⟩
    isplitl [Ha2]
    · iapply (Entails.of_eq e2.symm); iexact Ha2
    iexact HZ2

/-! ## The argument array is never written -/

/-- No host operation before the region writes the argument array. -/
theorem V0_arg0 (c : Dev nD) : V0 m c (Proc.devRef .tc main_arg0) = m ((c.tc : Thread nD τ).loc main_arg0) := by
  show StableHlo.after (List.flatten [hostOps0, hostOps0_1, hostOps0_2]) (fun b => m (c, b)) (Proc.devRef .tc main_arg0) = _
  rw [List.flatten_cons, List.flatten_cons, List.flatten_cons, List.flatten_nil, List.append_nil,
    StableHlo.after_append, StableHlo.after_append]
  rw [StableHlo.after_of_forall_not_mem (hostOps0_2 (F := F)) _ (by
      intro op hop; fin_cases hop <;> exact fun h => StableHlo.devRef_ne_of_ne (by decide) (Finset.mem_singleton.mp h)),
    StableHlo.after_of_forall_not_mem (hostOps0_1 (F := F)) _ (by
      intro op hop; fin_cases hop <;> exact fun h => StableHlo.devRef_ne_of_ne (by decide) (Finset.mem_singleton.mp h)),
    StableHlo.after_of_forall_not_mem (hostOps0 (F := F)) _ (by
      intro op hop; fin_cases hop <;> exact fun h => StableHlo.devRef_ne_of_ne (by decide) (Finset.mem_singleton.mp h))]

/-- Nor does any after it. -/
theorem Vfin_arg0 (c : Dev nD) : Vfin m c main_arg0 = m ((c.tc : Thread nD τ).loc main_arg0) :=
  (Wfin_keep m c main_arg0 (Or.inr (Or.inr (Or.inr rfl)))).trans ((Wexit_of_ne m c main_arg0 (by decide)).trans (V0_arg0 m c))

/-- The program runs to the end, nothing faulting, and its argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (Vfin_arg0 m c)) (run_main m ρ)

end Cert.Kernel.Hand

end
-- ==== Proof.KernelIdealBody.lean ====
/-
  The kernel body of the one pallas_call, and the pipeline's proof data.

  The grid has 32 points. At point `t` the body is handed four staging buffers: the `t`-th block of 256 rows of the
  normalised rows (the queries), ALL 8192 normalised rows (the keys: the same array again, fetched once), the `t`-th
  block of 256 positive-pair distances, and the output block of 256 row losses. It loads the three inputs, stores one
  value — the skeleton's payload, a pure function of the three loads — over the whole output block, and touches
  nothing else. So after the body each input buffer still holds its block and the output buffer holds that payload.

  The queries and the keys are two windows on ONE array: the pipeline holds that array at two half shares, one per
  window, and every other array at the full share.
-/
import proofs.«144312_j54150947668039_2_alg».proof.Proof.Gen.KernelIdeal.Launch
import proofs.«144312_j54150947668039_2_alg».proof.Proof.Gen.KernelIdeal.Skeleton
import proofs.«144312_j54150947668039_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Every buffer of core `c` once the host operations before the region have run, from the launch contents `m`. -/
abbrev V0 (c : Dev nD) : Valuation τ sig (Elt F) :=
  StableHlo.after (List.flatten [hostOps0, hostOps0_1, hostOps0_2]) (fun b => m (c, b))

/-- The same, read at the TensorCore's references. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a window that is
    not fetched at a point has not moved since it was. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each a whole buffer -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rP : Rect S256x1 := Rect.unit (s := S256x1) ![0, 0] S256x1.size inb_S256x1_S256x1_0_0

/-- The output block after the body, from the three input blocks: its one store, of the payload of the three loads. -/
def out0_3 (x0 : Vec F S256x128 .bf16) (x1 : Vec F S8192x128 .bf16) (x2 : Vec F S256x1 .f32) : Vec F S256x1 .f32 :=
  View.canon [⟨rP, k0_pay1 (View.ld x0 rQ) (View.ld x1 rK) (View.ld x2 rP)⟩]

/-- The one store covers the block. -/
theorem cover0_3 (p0 : Vec F S256x1 .f32) (y : S256x1.Idx) :
    ∃ pc ∈ ([⟨rP, p0⟩] : List (View.Piece (Elt F) S256x1 .f32)), y ∈ pc.1.set :=
  View.cover_of_tiled [⟨rP, p0⟩] S256x1.size (by rfl) y

/-! ## The body's triple -/

set_option maxHeartbeats 1000000 in
/-- The body on whole staging memrefs — the inputs' at contents `x0`, `x1`, `x2`, the output's at anything — runs to its
    continuation holding the inputs' as they were and the output's at `out0_3` of them. -/
theorem sound_kernel (c : Dev nD) (E : Set ℕ) (i : grid0.Coords) (arg1 : Memref sig .tc .vmem S256x128 .bf16) (harg1 : arg1.IsWhole)
    (arg2 : Memref sig .tc .vmem S8192x128 .bf16) (harg2 : arg2.IsWhole) (arg3 : Memref sig .tc .vmem S256x1 .f32) (harg3 : arg3.IsWhole)
    (arg4 : Memref sig .tc .vmem S256x1 .f32) (harg4 : arg4.IsWhole)
    (x0 : Vec F S256x128 .bf16) (x1 : Vec F S8192x128 .bf16) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t` each
    input's buffer at its block and the output's at `out0_3` of the input blocks; the invariant the scoped rest and
    the generator register, untouched; nothing owed; the array both the queries and the keys read held at two half
    shares, one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the whole program: host operations, the one pallas_call, host operations.

  The pallas_call reads the normalised rows through TWO windows, the 256-row query block and the resident
  8192-row key matrix: one array behind two windows. The pipeline therefore holds that array as its two half
  shares, one per window, where it holds every other array whole. `arrays_eq_bufs` says the four windows so held are
  the three distinct buffers behind them held whole: it deals the buffers to the pipeline when the region is entered,
  and gathers them again at its exit, where the seven host operations that follow run on every unscoped buffer —
  the entry contents, with the result array at what the 32 grid points wrote back. What the program leaves is then
  read off memory: the scalar result is the last host operation's value from those exit contents, and the argument
  array is untouched, no operation writing it.
-/
import proofs.«144312_j54150947668039_2_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array behind two windows -/

theorem arrRefs_eq : Finset.univ.image (Pipeline.arrRef spec0) = ({main_v18, main_v17, main_v19} : Finset (Ref sig .tc)) := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

omit [FloatOps F] in
/-- A buffer whole at the full share is the same buffer at its two half shares. -/
theorem halves (c : Dev nD) (Vx : (b : Ref sig .tc) → Buf (Elt F) ((c.tc : Thread nD τ).loc b)) :
    (iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) : sProp 𝕄)
      = iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) := by
  have h1 : (iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) : sProp 𝕄)
      ⊢ iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) := by
    iintro ⟨H0, H1, H2, H3⟩
    isplitl [H0 H1]
    · iapply (pointsTo_share (PosShare.mem_left_op_right fullShare)).2
      isplitl [H0]; · iexact H0
      iexact H1
    isplitl [H2]; · iexact H2
    iexact H3
  have h2 : (iprop(((c.tc : Thread nD τ).loc main_v18 ↦{fullShare} Vx main_v18)
        ∗ ((c.tc : Thread nD τ).loc main_v17 ↦{fullShare} Vx main_v17) ∗ ((c.tc : Thread nD τ).loc main_v19 ↦{fullShare} Vx main_v19)) : sProp 𝕄)
      ⊢ iprop(((c.tc : Thread nD τ).loc main_v18 ↦{fullShare.left} Vx main_v18) ∗ ((c.tc : Thread nD τ).loc main_v18 ↦{fullShare.right} Vx main_v18)
        ∗ ((c.tc : Thread nD τ).loc main_v17 ↦{fullShare} Vx main_v17) ∗ ((c.tc : Thread nD τ).loc main_v19 ↦{fullShare} Vx main_v19)) := by
    iintro ⟨H01, H2, H3⟩
    ihave H := (pointsTo_share (PosShare.mem_left_op_right fullShare)).1 $$ H01
    icases H with ⟨H0, H1⟩
    isplitl [H0]; · iexact H0
    isplitl [H1]; · iexact H1
    isplitl [H2]; · iexact H2
    iexact H3
  exact equiv_iff.mp ⟨h1, h2⟩

/-- The pipeline's four windows at contents `Fw` are the three distinct buffers behind them, each whole at the full
    share, at the same contents: the array the queries and the keys both read is held as its two half shares. -/
theorem arrays_eq_bufs (c : Dev nD) (Vx : (b : Ref sig .tc) → Buf (Elt F) ((c.tc : Thread nD τ).loc b))
    (Fw : (w : Fin cfg0.W) → Buf (Elt F) ((cfg0.win w).arr.view.loc (c.tc : Thread nD τ)))
    (hF : ∀ w, Fw w = Vx (Pipeline.arrRef spec0 w)) :
    ((dats m 0 c).arrays Fw : sProp 𝕄) = Pipeline.arrBufs spec0 c Vx := by
  unfold Dat.arrays Pipeline.arrBufs
  rw [bigSep_W0, arrRefs_eq, share0, share1, share2, share3,
    (arr_whole0 0).set_eq_univ, (arr_whole0 2).set_eq_univ, (arr_whole0 3).set_eq_univ,
    hF 0, hF 1, hF 2, hF 3,
    bigSep_insert (by decide), bigSep_insert (by decide), bigSep_singleton]
  exact halves c Vx

/-! ## The contents at the region's exit and after the host operations that follow it -/

/-- Every buffer at the region's exit: the entry contents, the result array at what the pipeline wrote back. -/
def Wexit (c : Dev nD) : Valuation τ sig (Elt F) :=
  Function.update (V0 m c) (Proc.devRef .tc main_v19) ((dats m 0 c).arrAt 3 cfg0.N)

/-- Every buffer when @main returns: the seven host operations after the region, from the exit contents. -/
def Wfin (c : Dev nD) : Valuation τ sig (Elt F) := StableHlo.after hostOps1 (Wexit m c)

abbrev Vexit (c : Dev nD) (b : Ref sig .tc) : Buf (Elt F) ((c : Thread nD τ).loc b) := Wexit m c (Proc.devRef .tc b)
abbrev Vfin (c : Dev nD) (b : Ref sig .tc) : Buf (Elt F) ((c : Thread nD τ).loc b) := Wfin m c (Proc.devRef .tc b)

theorem Wexit_out (c : Dev nD) : Wexit m c (Proc.devRef .tc main_v19) = (dats m 0 c).arrAt 3 cfg0.N := Function.update_self ..
theorem Wexit_of_ne (c : Dev nD) (b : Ref sig .tc) (h : b ≠ main_v19) : Wexit m c (Proc.devRef .tc b) = V0 m c (Proc.devRef .tc b) :=
  Function.update_of_ne (StableHlo.devRef_ne_of_ne h) ..

/-- The host operations after the region write none of the pipeline's arrays. -/
theorem tail_keeps (b : Ref sig .tc) (hb : b = main_v18 ∨ b = main_v17 ∨ b = main_v19 ∨ b = main_arg0) :
    ∀ op ∈ (hostOps1 (F := F)), Proc.devRef .tc b ∉ op.writes := by
  intro op hop
  rcases hb with rfl | rfl | rfl | rfl <;>
    (fin_cases hop <;> exact fun h => StableHlo.devRef_ne_of_ne (by decide) (Finset.mem_singleton.mp h))

theorem Wfin_keep (c : Dev nD) (b : Ref sig .tc) (hb : b = main_v18 ∨ b = main_v17 ∨ b = main_v19 ∨ b = main_arg0) :
    Wfin m c (Proc.devRef .tc b) = Wexit m c (Proc.devRef .tc b) :=
  StableHlo.after_of_forall_not_mem _ _ (tail_keeps b hb)

/-- Each window's array at the exit is the exit contents of the buffer behind it: an input array is never written. -/
theorem arrAt_exit (c : Dev nD) (w : Fin cfg0.W) : (dats m 0 c).arrAt w cfg0.N = Vexit m c (Pipeline.arrRef spec0 w) := by
  match w with
  | ⟨0, _⟩ => exact ((dats m 0 c).arrAt_in 0 rfl _).trans ((A_eq m c 0).trans (Wexit_of_ne m c _ (by decide)).symm)
  | ⟨1, _⟩ => exact ((dats m 0 c).arrAt_in 1 rfl _).trans ((A_eq m c 1).trans (Wexit_of_ne m c _ (by decide)).symm)
  | ⟨2, _⟩ => exact ((dats m 0 c).arrAt_in 2 rfl _).trans ((A_eq m c 2).trans (Wexit_of_ne m c _ (by decide)).symm)
  | ⟨3, _⟩ => exact (Wexit_out m c).symm

theorem arrAt_fin (c : Dev nD) (w : Fin cfg0.W) : (dats m 0 c).arrAt w cfg0.N = Vfin m c (Pipeline.arrRef spec0 w) := by
  rw [arrAt_exit]
  match w with
  | ⟨0, _⟩ => exact (Wfin_keep m c main_v18 (Or.inl rfl)).symm
  | ⟨1, _⟩ => exact (Wfin_keep m c main_v18 (Or.inl rfl)).symm
  | ⟨2, _⟩ => exact (Wfin_keep m c main_v17 (Or.inr (Or.inl rfl))).symm
  | ⟨3, _⟩ => exact (Wfin_keep m c main_v19 (Or.inr (Or.inr (Or.inl rfl)))).symm

/-- A buffer that is no window's array holds at the exit what it held at the entry. -/
theorem rest_exit (c : Dev nD) :
    (Pipeline.unscopedRest spec0 c (V m c) : sProp 𝕄) = Pipeline.unscopedRest spec0 c (Vexit m c) := by
  unfold Pipeline.unscopedRest
  refine bigSep_congr fun b hb => ?_
  have e := Wexit_of_ne m c b fun e => (Finset.mem_sdiff.mp hb).2 (Finset.mem_image.mpr ⟨3, Finset.mem_univ _, e ▸ rfl⟩)
  show ((c.tc : Thread nD τ).loc b ↦{fullShare} V0 m c (Proc.devRef .tc b) : sProp 𝕄)
    = ((c.tc : Thread nD τ).loc b ↦{fullShare} Wexit m c (Proc.devRef .tc b))
  rw [e]

/-- Every unscoped buffer held at a valuation: the buffers behind the windows' arrays, and the rest. -/
theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs (0 : Fin 1) winFacts₀0.arr_unscoped c _

/-! ## The run -/

/-- The buffers that bypass the region: the unscoped ones that are no window's array. -/
abbrev restSet : Finset (Ref sig .tc) := (Finset.univ.filter fun b : Ref sig .tc => ¬ b.isScoped) \ Finset.univ.image (Pipeline.arrRef spec0)

/-- The one pipeline, as a pipeline that prefetches no table, and the one admissible (empty) table contents. -/
abbrev pcsF : Fin 1 → Pipeline.PCfg sig Λ₀ (Elt F) := fun q => (cfgs q).toPCfg (Val := Elt F)
abbrev admF : (q : Fin 1) → (pcsF (F := F) q).Adm := fun q => (cfgs q).toPCfg_adm

/-- @main is three stretches of host operations, the region, and one more stretch. -/
theorem hmain : Pipeline.HMainPK (Ix := Unit) (Name := ℕ) (U := UR sig nD τ) (Lvl := ℕ)
    (pcsF (F := F)) 0 defs₀ Variants.none m (main (F := F))
    (V m) (fun _ => Pipeline.chain ([hostOps1].map StableHlo.seq)) :=
  Pipeline.hmainP_around (pcsF (F := F)) 0 defs₀ Variants.none m main
    [hostOps0, hostOps0_1, hostOps0_2] [hostOps1] ⟨hostOps0_sub, hostOps0_1_sub, hostOps0_2_sub⟩
    (List.forall_iff_forall_mem.mpr (by
      intro ops h; fin_cases h <;> exact List.forall_iff_forall_mem.mpr (by intro op h; fin_cases h <;> rfl)))
    (fun c => (main_chain c).trans rfl)

theorem cellOf_inj' : Function.Injective (cellOf (nD := nD) (τ := τ) (Pipeline.pin (pcsF (F := F)) (admF (F := F)))) := cellOf_inj

set_option backward.isDefEq.respectTransparency.types false in
/-- Every weakly fair execution of @main terminates, nothing faulting; at the end the result holds the last host
    operation's value computed from the exit contents, and the argument array holds what it was launched with. -/
theorem run_main : θ_run defs (onTc (τ := τ) (main (F := F))) ⟨m, fun _ => 0, ρ⟩ (fun r => ∀ c : Dev nD,
      r.2.mem ((c.tc : Thread nD τ).loc main_v23) = Vfin m c main_v23
      ∧ r.2.mem ((c.tc : Thread nD τ).loc main_arg0) = Vfin m c main_arg0) := by
  classical
  refine Pipeline.θ_run_region_pf_tail (pcsF (F := F)) (admF (F := F)) (dats m) ()
    (cellOf_inj' (F := F)) 0 winFacts₀0 (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp))
    (u₀ := initOf (Pipeline.cells (Pipeline.pin (pcsF (F := F)) (admF (F := F))) (cellOf_inj' (F := F))) (Pipeline.launchToks (Pipeline.pin (pcsF (F := F)) (admF (F := F))) (cellOf_inj' (F := F))))
    (hu₀ := ?hu) (V := V m) (hmain := hmain m)
    (hsplit := fun c => Entails.of_eq ((arrays_eq_bufs m c (V m c) _ fun w => A_eq m c w).symm))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Vfin m c))
    (hX := ?hX) (hin := ?hin) (hout := ?hout) (htail := ?htail)
    (QY := fun c s => ∀ b ∈ restSet, s.mem ((c.tc : Thread nD τ).loc b) = Vfin m c b)
    (hY := ?hY) (hQ := ?hQ)
  case hu =>
    iintro Hu; imodintro
    isplitl [Hu]
    · iapply (show (ownU _ : sProp 𝕄) ⊢ BI.own (emb₁ (initOf (Pipeline.cells (Pipeline.pin (pcsF (F := F)) (admF (F := F))) (cellOf_inj' (F := F))) (Pipeline.launchToks (Pipeline.pin (pcsF (F := F)) (admF (F := F))) (cellOf_inj' (F := F))))) from .rfl)
      iexact Hu
    iapply (show (BI.emp : sProp 𝕄) ⊢ bigSep Finset.univ (fun _ : Dev nD => (BI.emp : sProp 𝕄)) from by rw [BI.bigSep_emp_const])
    iempintro
  case hX =>
    intro c
    rw [Pipeline.unscopedRestP_none]
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr]; · iexact Hr
    iexact Hp
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case hY =>
    intro c s'
    iintro ⟨-, HU, HSI⟩
    unfold Pipeline.unscopedRest
    imodintro
    iapply (pointsTo_read_all restSet (fun b => (c.tc : Thread nD τ).loc b) (Vfin m c) s')
    isplitl [HU] <;> iassumption
  case hQ =>
    intro s h c
    exact ⟨(h c).2.2 main_v23 (by decide), (h c).2.2 main_arg0 (by decide)⟩
  case htail =>
    intro c Q'
    have e1 := arrays_eq_bufs m c (Vexit m c) _ (arrAt_exit m c)
    have e2 := arrays_eq_bufs m c (Vfin m c) _ (arrAt_fin m c)
    have hsub' : ∀ ops ∈ [hostOps1 (F := F)], ∀ op ∈ ops, op.bufs ⊆ Pipeline.ucRefs τ sig := fun ops ho op h => by
      rw [List.mem_singleton] at ho; subst ho
      exact Pipeline.sub_ucRefs op ((List.forall_iff_forall_mem.mp hostOps1_sub) op h)
    have hfresh' : ∀ ops ∈ [hostOps1 (F := F)], ∀ op ∈ ops, op.fresh = ∅ := fun ops ho op h => by
      rw [List.mem_singleton] at ho; subst ho
      fin_cases h <;> rfl
    rw [← List.append_nil ([hostOps1 (F := F)].map StableHlo.seq)]
    iintro ⟨Hk, Hb, Ha, HZ⟩
    ihave Ha' := (Entails.of_eq e1) $$ Ha
    ihave HZ' := (Entails.of_eq (rest_exit m c)) $$ HZ
    ihave Hh := (Entails.of_eq (held_split c (Wexit m c)).symm) $$ [Ha' HZ']
    · isplitl [Ha']; · iexact Ha'
      iexact HZ'
    iapply (Pipeline.wp_seqs_then (pcsF (F := F)) defs₀ Variants.none c (Pipeline.ucRefs τ sig) [] [hostOps1] hsub' hfresh' (Wexit m c)) $$ [Hb Hh]
    · isplitl [Hb]; · iexact Hb
      iexact Hh
    iintro ⟨Hb, Hh⟩
    rw [Pipeline.chain_nil, wp_pure]
    imodintro
    iapply Hk
    ihave Hs := (Entails.of_eq (held_split c (StableHlo.after [hostOps1 (F := F)].flatten (Wexit m c)))) $$ Hh
    icases Hs with ⟨Ha2, HZ2⟩
    isplitl [Ha2]
    · iapply (Entails.of_eq e2.symm); iexact Ha2
    iexact HZ2

/-! ## The argument array is never written -/

/-- No host operation before the region writes the argument array. -/
theorem V0_arg0 (c : Dev nD) : V0 m c (Proc.devRef .tc main_arg0) = m ((c.tc : Thread nD τ).loc main_arg0) := by
  show StableHlo.after (List.flatten [hostOps0, hostOps0_1, hostOps0_2]) (fun b => m (c, b)) (Proc.devRef .tc main_arg0) = _
  rw [List.flatten_cons, List.flatten_cons, List.flatten_cons, List.flatten_nil, List.append_nil,
    StableHlo.after_append, StableHlo.after_append]
  rw [StableHlo.after_of_forall_not_mem (hostOps0_2 (F := F)) _ (by
      intro op hop; fin_cases hop <;> exact fun h => StableHlo.devRef_ne_of_ne (by decide) (Finset.mem_singleton.mp h)),
    StableHlo.after_of_forall_not_mem (hostOps0_1 (F := F)) _ (by
      intro op hop; fin_cases hop <;> exact fun h => StableHlo.devRef_ne_of_ne (by decide) (Finset.mem_singleton.mp h)),
    StableHlo.after_of_forall_not_mem (hostOps0 (F := F)) _ (by
      intro op hop; fin_cases hop <;> exact fun h => StableHlo.devRef_ne_of_ne (by decide) (Finset.mem_singleton.mp h))]

/-- Nor does any after it. -/
theorem Vfin_arg0 (c : Dev nD) : Vfin m c main_arg0 = m ((c.tc : Thread nD τ).loc main_arg0) :=
  (Wfin_keep m c main_arg0 (Or.inr (Or.inr (Or.inr rfl)))).trans ((Wexit_of_ne m c main_arg0 (by decide)).trans (V0_arg0 m c))

/-- The program runs to the end, nothing faulting, and its argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (Vfin_arg0 m c)) (run_main m ρ)

end Cert.KernelIdeal.Hand

end
-- ==== Proof.Spec.lean ====
/-
  The contrastive loss both programs compute, as one function of the row-normalised feature matrix, index by
  index on the extended reals.

  For rows `c i` (`i < 8192`, 128 entries each; rows `i` and `i ± 4096` are the two views of one sample):
  the inner product `gram c i j = ∑ d, c i d * c j d`; the clamped distance
  `distOf g = √(max (2 - 2·g) ε)`; row `i`'s loss is the distance to its partner plus the logarithm of
  `∑ j, exp (-dist i j)` less the diagonal term `exp (-dist i i)`; the result is the rows' sum over `8192`.
  The float literals stay the words the programs print (`2`, `ε`, `8192`): the same word on both sides
  is never evaluated.
-/
import Idealize.ShloMosaic.PureOps.Ideal

noncomputable section

namespace Cert.Spec

open Idealize.ShloMosaic

/-- The clamp `ε` (the word both programs print for `1e-12`). -/
abbrev epsW : EReal := Ideal.ofBits .f32 0x2B8CBCCC#32
/-- The literal `2`. -/
abbrev twoW : EReal := Ideal.ofBits .f32 0x40000000#32
/-- The number of rows as a float, `8192`. -/
abbrev rowsW : EReal := Ideal.ofBits .f32 0x46000000#32

/-- The inner product of rows `i` and `j`. -/
def gram (c : Fin 8192 → Fin 128 → EReal) (i j : Fin 8192) : EReal := ∑ d : Fin 128, c i d * c j d

/-- The clamped distance belonging to an inner product `g`: `√(max (2 - 2·g) ε)`. -/
def distOf (g : EReal) : EReal := Ideal.sqrt (max (twoW - twoW * g) epsW)

/-- The other view of row `i`'s sample: `i + 4096` modulo `8192`. -/
def partner (i : Fin 8192) : Fin 8192 := ⟨(i.val + 4096) % 8192, Nat.mod_lt _ (by norm_num)⟩

/-- Row `i`'s loss: the distance to its partner plus `log (∑ j, exp (-dist i j) - exp (-dist i i))`. -/
def rowLoss (c : Fin 8192 → Fin 128 → EReal) (i : Fin 8192) : EReal :=
  distOf (gram c i (partner i))
    + Ideal.log ((∑ j : Fin 8192, Ideal.exp (0 - distOf (gram c i j))) - Ideal.exp (0 - distOf (gram c i i)))

/-- The mean of the rows' losses. -/
def loss (c : Fin 8192 → Fin 128 → EReal) : EReal := Ideal.div (∑ i : Fin 8192, rowLoss c i) rowsW

end Cert.Spec

end
-- ==== Proof.Payload.lean ====
/-
  The kernel body's stored value at an index. For row `p` of the block (`p < 256`), with `a` the block's rows and
  `b` the full `[8192,128]` array, the body adds to the carried value the logarithm of
  `∑ j, exp (-dist (a p · b j)) - exp (-dist (a p · a p))`, where `dist g = √(max (2 - 2·g) ε)`.
  The pointwise operations read at the index by unfolding; the three operations that are not pointwise
  are read by a lemma each: the matrix product with the transposed operand is the inner product of the rows,
  a lane sum is the sum over the row, and the cast `[256] → [256,1]` keeps the row coordinate.
-/
import proofs.«144312_j54150947668039_2_alg».proof.Proof.Gen.KernelIdeal.Skeleton
import proofs.«144312_j54150947668039_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Payload

open Idealize.ShloMosaic Idealize.ShloMosaic.ValueIdx Cert.KernelIdeal Cert.KernelIdeal.Gen

/-- The cast `[256] → [256,1]` keeps the row coordinate. -/
theorem cast_col_apply {α : Type} (x : S256.Idx → α) (h : S256.ShapeCasts S256x1) (p : Fin 256) (q : Fin 1) :
    shapeCast S256x1 x h (ix2 p q) = x (ix1 p) :=
  shapeCast_apply x h (ix2 p q) (ix1 p) (by
    rw [Shape.rowMajor_val_one, Shape.rowMajor_val_two]
    have hq : q.val < 1 := q.isLt
    show p.val = p.val * 1 + q.val
    omega)

/-- A lane sum of a `[256,8192]` array at row `p` is the sum over the row. -/
theorem rowSum_8192 (src : FVec Ideal S256x8192 .f32) (h : S256x8192.Reduces [1] S256) (hφ : FKind.Formats .f32)
    (hacc : (0x00000000#32 : BitVec 32) = FKind.add.neutral .f32 hφ) (p : Fin 256) :
    multiReduction .add [1] S256 src 0x00000000#32 h hφ hacc (ix1 p) = ∑ j : Fin 8192, src (ix2 p j) := by
  refine (Ideal.multiReduction_add_single src _ h hφ hacc (ix1 p)).trans ?_
  refine Finset.sum_congr rfl fun k _ => congrArg src ?_
  exact funext fun a => Fin.ext (by match a with | ⟨0, _⟩ => rfl | ⟨1, _⟩ => rfl)

/-- A lane sum of a `[256,128]` array at row `p` is the sum over the row. -/
theorem rowSum_128 (src : FVec Ideal S256x128 .f32) (h : S256x128.Reduces [1] S256) (hφ : FKind.Formats .f32)
    (hacc : (0x00000000#32 : BitVec 32) = FKind.add.neutral .f32 hφ) (p : Fin 256) :
    multiReduction .add [1] S256 src 0x00000000#32 h hφ hacc (ix1 p) = ∑ d : Fin 128, src (ix2 p d) := by
  refine (Ideal.multiReduction_add_single src _ h hφ hacc (ix1 p)).trans ?_
  refine Finset.sum_congr rfl fun k _ => congrArg src ?_
  exact funext fun a => Fin.ext (by match a with | ⟨0, _⟩ => rfl | ⟨1, _⟩ => rfl)

theorem lhs_0 (i : S256x8192.Idx) (q : dot_S256x128_S128x8192_S256x8192_1_0_0_1_n_n.contr.Idx) :
    (dot_S256x128_S128x8192_S256x8192_1_0_0_1_n_n.lhsIdx i q 0).val = (i 0).val := by
  unfold DotDims.lhsIdx
  rw [dif_neg (show ¬(0 : Fin S256x128.rank) ∈ dot_S256x128_S128x8192_S256x8192_1_0_0_1_n_n.lhsBatch by decide), dif_pos (show (0 : Fin S256x128.rank) ∈ dot_S256x128_S128x8192_S256x8192_1_0_0_1_n_n.lhsNonContracting by decide)]
  rfl
theorem lhs_1 (i : S256x8192.Idx) (q : dot_S256x128_S128x8192_S256x8192_1_0_0_1_n_n.contr.Idx) :
    (dot_S256x128_S128x8192_S256x8192_1_0_0_1_n_n.lhsIdx i q 1).val = (q ⟨0, by decide⟩).val :=
  dot_S256x128_S128x8192_S256x8192_1_0_0_1_n_n.lhsIdx_val_of_single rfl i q
theorem rhs_0 (i : S256x8192.Idx) (q : dot_S256x128_S128x8192_S256x8192_1_0_0_1_n_n.contr.Idx) :
    (dot_S256x128_S128x8192_S256x8192_1_0_0_1_n_n.rhsIdx i q 0).val = (q ⟨0, by decide⟩).val :=
  dot_S256x128_S128x8192_S256x8192_1_0_0_1_n_n.rhsIdx_val_of_single rfl i q
theorem rhs_1 (i : S256x8192.Idx) (q : dot_S256x128_S128x8192_S256x8192_1_0_0_1_n_n.contr.Idx) :
    (dot_S256x128_S128x8192_S256x8192_1_0_0_1_n_n.rhsIdx i q 1).val = (i 1).val := by
  unfold DotDims.rhsIdx
  rw [dif_neg (show ¬(1 : Fin S128x8192.rank) ∈ dot_S256x128_S128x8192_S256x8192_1_0_0_1_n_n.rhsBatch by decide), dif_pos (show (1 : Fin S128x8192.rank) ∈ dot_S256x128_S128x8192_S256x8192_1_0_0_1_n_n.rhsNonContracting by decide)]
  rfl

/-- The matrix product of the block with the transposed array, into a zero accumulator, at `(p, j)`: the inner product
    of row `p` of the block and row `j` of the array. -/
theorem matmul_T_apply (a : FVec Ideal S256x128 .bf16) (b : FVec Ideal S8192x128 .bf16)
    (ht : S8192x128.Transposes [1, 0] S128x8192) (p : Fin 256) (j : Fin 8192) :
    matmul dot_S256x128_S128x8192_S256x8192_1_0_0_1_n_n none a (transpose S128x8192 [1, 0] b ht) (constant S256x8192 .f32 0x00000000#32) (ix2 p j)
      = ∑ d : Fin 128, a (ix2 p d) * b (ix2 j d) := by
  refine (Ideal.matmul_constant_zero_apply dot_S256x128_S128x8192_S256x8192_1_0_0_1_n_n none a _ (ix2 p j)).trans ?_
  rw [← Equiv.sum_comp (ValueIdx.contrEquiv1 dot_S256x128_S128x8192_S256x8192_1_0_0_1_n_n 128 rfl rfl).symm]
  refine Finset.sum_congr rfl fun k _ => ?_
  have hk := ValueIdx.contrEquiv1_symm_val dot_S256x128_S128x8192_S256x8192_1_0_0_1_n_n 128 rfl rfl k
  have el : dot_S256x128_S128x8192_S256x8192_1_0_0_1_n_n.lhsIdx (ix2 p j) ((ValueIdx.contrEquiv1 dot_S256x128_S128x8192_S256x8192_1_0_0_1_n_n 128 rfl rfl).symm k) = ix2 p k := funext fun c => Fin.ext (by
    match c with
    | ⟨0, _⟩ => exact lhs_0 _ _
    | ⟨1, _⟩ => exact (lhs_1 _ _).trans hk)
  have er : dot_S256x128_S128x8192_S256x8192_1_0_0_1_n_n.rhsIdx (ix2 p j) ((ValueIdx.contrEquiv1 dot_S256x128_S128x8192_S256x8192_1_0_0_1_n_n 128 rfl rfl).symm k) = ix2 k j := funext fun c => Fin.ext (by
    match c with
    | ⟨0, _⟩ => exact (rhs_0 _ _).trans hk
    | ⟨1, _⟩ => exact rhs_1 _ _)
  rw [el, er, transpose_ix2_apply]

/-! The pointwise operations without a library lemma, read at an index; a scalar literal is the word's value. -/
theorem sqrt_apply' {s : Shape} (a : FVec Ideal s .f32) (i : s.Idx) : sqrt a i = Ideal.sqrt (a i) := rfl
theorem exp_apply' {s : Shape} (a : FVec Ideal s .f32) (i : s.Idx) : exp a i = Ideal.exp (a i) := rfl
theorem log_apply' {s : Shape} (a : FVec Ideal s .f32) (i : s.Idx) : log a i = Ideal.log (a i) := rfl
theorem scalar_ofBits (b : BitVec 32) : (Scalar.ofBits .f32 b : Ideal .f32) = Ideal.ofBits .f32 b := rfl

/-- The stored value at row `p`: the carried value plus the logarithm of the row's sum of `exp (-dist)` less its
    diagonal term. -/
theorem pay1_apply (v0 : Vec Ideal S256x128 .bf16) (v2 : Vec Ideal S8192x128 .bf16) (v33 : Vec Ideal S256x1 .f32) (p : Fin 256) :
    k0_pay1 (F := Ideal) v0 v2 v33 (ix2 p 0)
      = v33 (ix2 p 0) + Ideal.log ((∑ j : Fin 8192, Ideal.exp (0 - Cert.Spec.distOf (∑ d : Fin 128, v0 (ix2 p d) * v2 (ix2 j d))))
          - Ideal.exp (0 - Cert.Spec.distOf (∑ d : Fin 128, v0 (ix2 p d) * v0 (ix2 p d)))) := by
  unfold k0_pay1
  dsimp only
  rw [shapeCast_self v0, shapeCast_self v2, shapeCast_self v33]
  simp only [addf_apply, subf_apply, mulf_apply, maximumf_apply, broadcast_apply, extf_apply, sqrt_apply', exp_apply', log_apply',
    cast_col_apply, rowSum_8192, rowSum_128, matmul_T_apply, scalar_ofBits, Ideal.ofBits_zero_f32]
  unfold Cert.Spec.distOf
  refine congrArg (fun t => v33 (ix2 p 0) + Ideal.log t) (congrArg₂ (fun a b => a - Ideal.exp (0 - Ideal.sqrt
    (max (Ideal.ofBits .f32 0x40000000#32 - Ideal.ofBits .f32 0x40000000#32 * b) (Ideal.ofBits .f32 0x2B8CBCCC#32)))) ?_ ?_)
  · refine (rowSum_8192 _ _ _ _ p).trans (Finset.sum_congr rfl fun j _ => ?_)
    exact congrArg (fun g => Ideal.exp (0 - Ideal.sqrt (max (Ideal.ofBits .f32 0x40000000#32 - Ideal.ofBits .f32 0x40000000#32 * g)
      (Ideal.ofBits .f32 0x2B8CBCCC#32)))) (matmul_T_apply v0 v2 _ p j)
  · refine (rowSum_128 _ _ _ _ p).trans (Finset.sum_congr rfl fun d _ => ?_)
    rfl

end Cert.Payload

end
-- ==== Proof.KernelBlocks.lean ====
/-
  From the blocks to the array. The grid's point `t` writes back rows `256·t … 256·t + 255` of the result; the block
  it writes is the body's stored value of the three blocks it loaded: rows `256·t …` of the normalised rows, all of the
  normalised rows, and rows `256·t …` of the positive-pair distances. Read at an index, that is row `r = 256·t + p`'s
  term: the positive-pair distance of row `r` plus the logarithm of `∑ j, exp (-dist (c r · c j)) - exp (-dist (c r · c r))`.
  The 32 blocks tile the `8192` rows, so the array after the run is that function of the row, at every row.
-/
import proofs.«144312_j54150947668039_2_alg».proof.Proof.KernelIdealBody
import proofs.«144312_j54150947668039_2_alg».proof.Proof.Payload
import Idealize.ShloMosaic.Lib.Pipeline.Value
import Idealize.ShloMosaic.Lib.ValueIdx

noncomputable section

namespace Cert.KernelValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- Row `y 0`'s term, from the normalised rows `cf` and the positive-pair distances `pd`. -/
def rowTerm (cf : S8192x128.Idx → EReal) (pd : S8192x1.Idx → EReal) : S8192x1.Idx → EReal := fun y =>
  pd (ix2 (y 0) 0)
    + Ideal.log ((∑ j : Fin 8192, Ideal.exp (0 - Cert.Spec.distOf (∑ d : Fin 128, cf (ix2 (y 0) d) * cf (ix2 j d))))
        - Ideal.exp (0 - Cert.Spec.distOf (∑ d : Fin 128, cf (ix2 (y 0) d) * cf (ix2 (y 0) d))))

/-- One point: when the three loaded blocks are rows `R + ·` of `cf`, all of `cf`, and rows `R + ·` of `pd`, the stored
    value at row `y 0` of the block is row `R + y 0`'s term. -/
theorem point_eq (cf : S8192x128.Idx → EReal) (pd : S8192x1.Idx → EReal)
    (x0 : Vec Ideal S256x128 .bf16) (x1 : Vec Ideal S8192x128 .bf16) (x2 : Vec Ideal S256x1 .f32)
    (row : Fin 256 → Fin 8192)
    (h0 : ∀ (p : Fin 256) (d : Fin 128), x0 (ix2 p d) = cf (ix2 (row p) d))
    (h1 : ∀ (j : Fin 8192) (d : Fin 128), x1 (ix2 j d) = cf (ix2 j d))
    (h2 : ∀ p : Fin 256, x2 (ix2 p 0) = pd (ix2 (row p) 0))
    (y : S256x1.Idx) :
    k0_pay1 (F := Ideal) x0 x1 x2 y = rowTerm cf pd (ix2 (row (y 0)) 0) := by
  have hy : y = ix2 (y 0) 0 := by
    funext a
    match a with
    | ⟨0, _⟩ => rfl
    | ⟨1, _⟩ => exact Fin.ext (by have h : (y 1).val < 1 := (y 1).isLt; show (y 1).val = 0; omega)
  obtain ⟨p, rfl⟩ : ∃ p : Fin 256, y = ix2 p 0 := ⟨y 0, hy⟩
  refine (Cert.Payload.pay1_apply x0 x1 x2 p).trans ?_
  show _ = pd (ix2 (row p) 0)
    + Ideal.log ((∑ j : Fin 8192, Ideal.exp (0 - Cert.Spec.distOf (∑ d : Fin 128, cf (ix2 (row p) d) * cf (ix2 j d))))
        - Ideal.exp (0 - Cert.Spec.distOf (∑ d : Fin 128, cf (ix2 (row p) d) * cf (ix2 (row p) d))))
  simp only [h0, h1, h2]

/-- The printed index maps, decided over the grid: at point `t` the row blocks are block `t`, the whole-array window is block `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `256·t + p` as an index of the `8192` rows. -/
def rowOf (t : Fin cfg0.N) (p : Fin 256) : Fin 8192 :=
  ⟨t.val * 256 + p.val, by have ht : t.val < 32 := lt_of_lt_of_eq t.isLt N_0; have hp := p.isLt; omega⟩

/-- The normalised rows as the region finds them, an array of extended reals. -/
abbrev cfArr (c : Dev nD) : S8192x128.Idx → EReal := V m c main_v18
/-- The positive-pair distances as the region finds them. -/
abbrev pdArr (c : Dev nD) : S8192x1.Idx → EReal := V m c main_v17

/-- WHAT POINT `t` WRITES BACK is block `t` of the rows' terms of the arrays as the region finds them. -/
theorem flushed_eq (c : Dev nD) (t : Fin cfg0.N) :
    (dats m 0 c).flushed 3 t
      = ((cfg0.win 3).blk t).view.read (Elt Ideal) (rowTerm (V m c main_v18) (V m c main_v17)) := by
  show (cfg0.win 3).cut (grid0.coords t) ((dats m 0 c).after 3 t) = _
  rw [after0_3]
  unfold out0_3
  rw [View.canon_unit_zero zeroOffsets]
  simp only [View.ld_unit_zero (S := S256x128) zeroOffsets, View.ld_unit_zero (S := S8192x128) zeroOffsets,
    View.ld_unit_zero (S := S256x1) zeroOffsets]
  obtain ⟨e00, e01, e10, e11, e20, e21, e30, e31⟩ := idx_facts t
  funext y
  show k0_pay1 (F := Ideal) (iblk m c 0 t) (iblk m c 1 t) (iblk m c 2 t) y
    = rowTerm (V m c main_v18) (V m c main_v17) (((cfg0.win 3).blk t).view.emb y)
  refine (point_eq (V m c main_v18) (V m c main_v17) (iblk m c 0 t) (iblk m c 1 t) (iblk m c 2 t) (rowOf t) ?_ ?_ ?_ y).trans ?_
  · intro p d
    show V m c main_v18 (((cfg0.win 0).blk t).view.emb (ix2 p d)) = _
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 128 + 1 * d.val = d.val; omega
  · intro j d
    show V m c main_v18 (((cfg0.win 1).blk t).view.emb (ix2 j d)) = _
    refine congrArg _ (funext fun a => Fin.ext ?_)
    match a with
    | ⟨0, _⟩ => show win0_1.index t (0 : Fin 2) * 8192 + 1 * j.val = j.val; omega
    | ⟨1, _⟩ => show win0_1.index t (1 : Fin 2) * 128 + 1 * d.val = d.val; omega
  · intro p
    show V m c main_v17 (((cfg0.win 2).blk t).view.emb (ix2 p 0)) = _
    refine congrArg _ (funext fun a => Fin.ext ?_)
    match a with
    | ⟨0, _⟩ => show win0_2.index t (0 : Fin 2) * 256 + 1 * p.val = t.val * 256 + p.val; omega
    | ⟨1, _⟩ => show win0_2.index t (1 : Fin 2) * 1 + 1 * 0 = 0; omega
  · refine congrArg _ (funext fun a => Fin.ext ?_)
    have hy1 : (y 1).val < 1 := (y 1).isLt
    match a with
    | ⟨0, _⟩ => show t.val * 256 + (y 0).val = win0_3.index t (0 : Fin 2) * 256 + 1 * (y 0).val; omega
    | ⟨1, _⟩ => show 0 = win0_3.index t (1 : Fin 2) * 1 + 1 * (y 1).val; omega

/-- An index of the array is in point `t`'s block iff each coordinate is in the block's range on its axis. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v19).slice (win0_3.rect t)).set ↔ _
  rw [View.set_slice_whole, Rect.mem_set_unit]
  exact Iff.rfl

/-- The 32 blocks of 256 rows tile the array: row `r` is in point `r / 256`'s block. -/
theorem cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ : ∃ t : Fin cfg0.N, t.val = (i 0).val / 256 :=
    ⟨⟨(i 0).val / 256, lt_of_lt_of_eq (show (i 0).val / 256 < 32 by omega) N_0.symm⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- THE ARRAY after the run: every row's term. -/
theorem arr_final (c : Dev nD) :
    (dats (F := Ideal) m 0 c).arrAt 3 cfg0.N = rowTerm (V m c main_v18) (V m c main_v17) :=
  (dats m 0 c).arrAt_eq_of_cover 3 _ (fun t _ => flushed_eq m c t) cover

/-- The same, at row `r`. -/
theorem arr_final_apply (c : Dev nD) (r : Fin 8192) :
    (dats (F := Ideal) m 0 c).arrAt 3 cfg0.N (ix2 r 0)
      = pdArr m c (ix2 r 0)
        + Ideal.log ((∑ j : Fin 8192, Ideal.exp (0 - Cert.Spec.distOf (∑ d : Fin 128, cfArr m c (ix2 r d) * cfArr m c (ix2 j d))))
            - Ideal.exp (0 - Cert.Spec.distOf (∑ d : Fin 128, cfArr m c (ix2 r d) * cfArr m c (ix2 r d)))) := by
  rw [arr_final]
  rfl

end Cert.KernelValue

end
-- ==== Proof.Consts.lean ====
/-
  The float literals the reference program spells, as the extended reals their words denote: evaluated once here,
  so that no other module unfolds the bit-level reading.
-/
import Idealize.ShloMosaic.PureOps.Ideal
import Idealize.ShloMosaic.PureOps.Ideal.Laws

noncomputable section

namespace Cert.Consts

open Idealize.ShloMosaic

/-- The word for `1.0` denotes `1`. -/
theorem ofBits_one : Ideal.ofBits .f32 0x3F800000#32 = 1 := by
  simp [Ideal.ofBits, Ideal.ieee, -EReal.coe_mul]; norm_num

/-- The word for `-1.0` denotes `-1`. -/
theorem ofBits_negOne : Ideal.ofBits .f32 0xBF800000#32 = ((-1 : ℝ) : EReal) := by
  simp [Ideal.ofBits, Ideal.ieee, -EReal.coe_mul]; norm_num

/-- The word for `0.0` denotes `0`. -/
theorem ofBits_zero : Ideal.ofBits .f32 0x00000000#32 = 0 := Ideal.ofBits_zero_f32

/-- The word for `-∞` denotes `⊥`. -/
theorem ofBits_negInf : Ideal.ofBits .f32 0xFF800000#32 = ⊥ := by
  simp [Ideal.ofBits, Ideal.ieee]

/-- The word for `2.0` denotes the real `2`. -/
theorem ofBits_two : Ideal.ofBits .f32 0x40000000#32 = ((2 : ℝ) : EReal) := by
  simp [Ideal.ofBits, Ideal.ieee, -EReal.coe_mul]; norm_num

/-- The clamp word denotes a positive real. -/
theorem ofBits_eps : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

end Cert.Consts

end
-- ==== Proof.PartnerGram.lean ====
/-
  The inner product of a row in the first half with the same row's copy in the second half is the inner product of
  any row with its partner: for a row of the second half the two factors are exchanged.
-/
import proofs.«144312_j54150947668039_2_alg».proof.Proof.Spec

noncomputable section

namespace Cert.PartnerGram

open scoped BigOperators

/-- For every row `r`, the inner product of rows `r mod 4096` and `r mod 4096 + 4096` is the inner product of
    `r` and its partner. -/
theorem partner_gram (c : Fin 8192 → Fin 128 → EReal) (r : Fin 8192) :
    (∑ d : Fin 128, c ⟨r.val % 4096, by omega⟩ d * c ⟨r.val % 4096 + 4096, by omega⟩ d)
      = Cert.Spec.gram c r (Cert.Spec.partner r) := by
  unfold Cert.Spec.gram
  have hr := r.isLt
  by_cases h : r.val < 4096
  · have e1 : (⟨r.val % 4096, by omega⟩ : Fin 8192) = r := Fin.ext (by show r.val % 4096 = r.val; omega)
    have e2 : (⟨r.val % 4096 + 4096, by omega⟩ : Fin 8192) = Cert.Spec.partner r :=
      Fin.ext (by show r.val % 4096 + 4096 = (r.val + 4096) % 8192; omega)
    rw [e1, e2]
  · have e1 : (⟨r.val % 4096, by omega⟩ : Fin 8192) = Cert.Spec.partner r :=
      Fin.ext (by show r.val % 4096 = (r.val + 4096) % 8192; omega)
    have e2 : (⟨r.val % 4096 + 4096, by omega⟩ : Fin 8192) = r := Fin.ext (by show r.val % 4096 + 4096 = r.val; omega)
    rw [e1, e2]
    exact Finset.sum_congr rfl fun d _ => mul_comm _ _

end Cert.PartnerGram

end
-- ==== Proof.KernelPrefix.lean ====
/-
  The kernel program's host operations before its region, as values: the normalised feature matrix is the reference's,
  operation for operation, and the positive-pair column holds the clamped distance of each row to its partner.
-/
import proofs.«144312_j54150947668039_2_alg».proof.Proof.KernelIdealBody
import proofs.«144312_j54150947668039_2_alg».proof.Proof.KernelBlocks
import proofs.«144312_j54150947668039_2_alg».proof.Proof.Gen.ReferenceIdeal.Read
import proofs.«144312_j54150947668039_2_alg».proof.Proof.Consts
import proofs.«144312_j54150947668039_2_alg».proof.Proof.PartnerGram
import proofs.«144312_j54150947668039_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ)

/-- The normalised feature matrix the region finds is the reference's: the same operations in the same order, and the
    narrowing to the region's element type changes no value. -/
theorem cf_eq (c : Dev nD) :
    (V m c main_v18 : S8192x128.Idx → EReal)
      = Cert.ReferenceIdeal.Read.val_main_v4 (F := Ideal) (m ((c.tc : Thread nD τ).loc main_arg0)) := by
  dsimp only [V, V0]
  simp only [hostOps0, hostOps0_1, hostOps0_2, List.flatten_cons, List.flatten_nil, List.append_nil, List.cons_append,
    List.nil_append]
  after_results
  rfl

/-- The two halves' rows multiplied entry by entry: row `q` of the first half with row `q` of the second. -/
def prods (cf : FVec Ideal S8192x128 .f32) : FVec Ideal S4096x128 .f32 :=
  mulf (extractStridedSlice S4096x128 ![0, 0] cf slices_S8192x128_S4096x128_0_0)
    (extractStridedSlice S4096x128 ![4096, 0] cf slices_S8192x128_S4096x128_4096_0)

/-- The sums along each row, from `0`. -/
def rowSums (y : FVec Ideal S4096x128 .f32) : FVec Ideal S4096 .f32 :=
  Host.reduceAdd (F := Ideal) y (constant (F := Ideal) S_ .f32 0x00000000#32) reducesTo_S4096x128_S4096_d1 h_S_

/-- A vector of `4096` inner products laid out twice, then `√(max (2 - 2·g) ε)` entry by entry, as a column. -/
def colOf (s : FVec Ideal S4096 .f32) : FVec Ideal S8192x1 .f32 :=
  shapeCast S8192x1
    (Host.sqrt
      (maximumf
        (subf (broadcastInDim S8192 ![] bcast_S_S8192 (constant (F := Ideal) S_ .f32 0x40000000#32))
          (mulf (broadcastInDim S8192 ![] bcast_S_S8192 (constant (F := Ideal) S_ .f32 0x40000000#32))
            (concatenate S8192 0 [⟨S4096, s⟩, ⟨S4096, s⟩] concatenates_S4096_S4096_S8192_d0)))
        (broadcastInDim S8192 ![] bcast_S_S8192 (constant (F := Ideal) S_ .f32 0x2B8CBCCC#32))))
    shapeCasts_S8192_S8192x1

/-- The positive-pair column as a function of the normalised feature matrix. -/
def pdOf (cf : FVec Ideal S8192x128 .f32) : FVec Ideal S8192x1 .f32 := colOf (rowSums (prods cf))

theorem prods_apply (cf : FVec Ideal S8192x128 .f32) (q : Fin 4096) (d : Fin 128) :
    prods cf (ix2 q d)
      = cf (ix2 (⟨q.val, by have := q.isLt; omega⟩ : Fin 8192) d)
        * cf (ix2 (⟨q.val + 4096, by have := q.isLt; omega⟩ : Fin 8192) d) := by
  unfold prods
  rw [mulf_apply,
    slice2_axis0_apply 0 cf slices_S8192x128_S4096x128_0_0 q d ⟨q.val, by have := q.isLt; omega⟩ (Nat.zero_add _).symm,
    slice2_axis0_apply 4096 cf slices_S8192x128_S4096x128_4096_0 q d ⟨q.val + 4096, by have := q.isLt; omega⟩
      (Nat.add_comm _ _)]

theorem rowSums_apply (y : FVec Ideal S4096x128 .f32) (q : Fin 4096) :
    rowSums y (ix1 q) = ∑ k : Fin 128, y (ix2 q k) := by
  unfold rowSums
  simp only [Host.reduceAdd, Ideal.hostReduceAdd_def]
  rw [Ideal.hostReduceAdd_single reducesTo_S4096x128_S4096_d1 (by decide)]
  show Ideal.ofBits .f32 0x00000000#32 + _ = _
  rw [Cert.Consts.ofBits_zero, zero_add]
  refine Finset.sum_congr rfl fun k _ => ?_
  exact congrArg y (funext fun a => Fin.ext (by match a with | ⟨0, _⟩ => rfl | ⟨1, _⟩ => rfl))

theorem colOf_apply (s : FVec Ideal S4096 .f32) (r : Fin 8192) :
    colOf s (ix2 r 0) = Cert.Spec.distOf (s (ix1 (⟨r.val % 4096, Nat.mod_lt _ (by decide)⟩ : Fin 4096))) := by
  unfold colOf Cert.Spec.distOf Cert.Spec.twoW Cert.Spec.epsW
  rw [shapeCast_apply _ shapeCasts_S8192_S8192x1 (ix2 r 0) (ix1 r)
    (by rw [Shape.rowMajor_val_one, Shape.rowMajor_val_two]; show r.val = r.val * 1 + 0; omega)]
  show Ideal.sqrt (max (_ - _ * _) _) = _
  rw [broadcastInDim_scalar_apply, broadcastInDim_scalar_apply, constant_apply, constant_apply]
  have hc : concatenate S8192 0 [⟨S4096, s⟩, ⟨S4096, s⟩] concatenates_S4096_S4096_S8192_d0 (ix1 r)
      = s (ix1 (⟨r.val % 4096, Nat.mod_lt _ (by decide)⟩ : Fin 4096)) :=
    concatenate_replicate_apply (0 : Fin S8192.rank) 2 s concatenates_S4096_S4096_S8192_d0 rfl (ix1 r) _ rfl
      (fun b hb => absurd (Fin.ext (by have : b.val < 1 := b.isLt; show b.val = 0; omega)) hb)
  rw [hc]

theorem pdOf_apply (cf : FVec Ideal S8192x128 .f32) (r : Fin 8192) :
    pdOf cf (ix2 r 0)
      = Cert.Spec.distOf (∑ d : Fin 128, cf (ix2 (⟨r.val % 4096, by omega⟩ : Fin 8192) d)
          * cf (ix2 (⟨r.val % 4096 + 4096, by omega⟩ : Fin 8192) d)) := by
  unfold pdOf
  rw [colOf_apply, rowSums_apply]
  refine congrArg Cert.Spec.distOf (Finset.sum_congr rfl fun d _ => ?_)
  rw [prods_apply]

/-- After the last stretch of host operations, from ANY contents: the positive-pair column is that function of the
    matrix the stretch divides out. -/
theorem pd_term_of (W : Valuation τ sig (Elt Ideal)) :
    (StableHlo.after (hostOps0_2 (F := Ideal)) W (Proc.devRef .tc main_v17) : S8192x1.Idx → EReal)
      = pdOf (StableHlo.after (hostOps0_2 (F := Ideal)) W (Proc.devRef .tc main_v4)) := by
  simp only [hostOps0_2]
  after_results
  rfl

/-- … and the narrowed matrix is that matrix. -/
theorem cf_term_of (W : Valuation τ sig (Elt Ideal)) :
    (StableHlo.after (hostOps0_2 (F := Ideal)) W (Proc.devRef .tc main_v18) : S8192x128.Idx → EReal)
      = (StableHlo.after (hostOps0_2 (F := Ideal)) W (Proc.devRef .tc main_v4) : S8192x128.Idx → EReal) := by
  simp only [hostOps0_2]
  after_results
  rfl

/-- The positive-pair column the region finds holds, at row `r`, the clamped distance of row `r` to its partner. -/
theorem pd_eq (c : Dev nD) (r : Fin 8192) :
    pdArr m c (ix2 r 0)
      = Cert.Spec.distOf (Cert.Spec.gram (fun i d => cfArr m c (ix2 i d)) r (Cert.Spec.partner r)) := by
  rw [← Cert.PartnerGram.partner_gram]
  have h17 : pdArr m c = pdOf (cfArr m c) := by
    show (V m c main_v17 : S8192x1.Idx → EReal) = pdOf (V m c main_v18)
    exact (pd_term_of (StableHlo.after (hostOps0_1 (F := Ideal)) (StableHlo.after (hostOps0 (F := Ideal)) (fun b => m (c, b))))).trans
      (congrArg pdOf (cf_term_of _).symm)
  rw [h17, pdOf_apply]

end Cert.KernelValue

end
-- ==== Proof.KernelTail.lean ====
/-
  The kernel program's host operations after its region, as one value: the region's column of row losses, multiplied
  by the broadcast `1`, summed over every index from `0`, and divided by the row count.
-/
import proofs.«144312_j54150947668039_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws
import proofs.«144312_j54150947668039_2_alg».proof.Proof.Consts
import proofs.«144312_j54150947668039_2_alg».proof.Proof.Spec

noncomputable section

namespace Cert.KernelTail

open Cert.KernelIdeal Cert.KernelIdeal.Gen Idealize.ShloMosaic Idealize.ShloMosaic.TcCoe Idealize.ShloMosaic.ValueIdx
open Idealize.SL.Sem Idealize.ShloMosaic.StableHlo
open scoped BigOperators

/-- The host's sum over both axes of an `[8192,1]` array into a scalar: the initial value plus the sum over every index. -/
theorem sumAll (y : FVec Ideal S8192x1 .f32) (init : FVec Ideal S_ .f32) (k : S_.Idx) :
    Host.reduceAdd (F := Ideal) (φ := .f32) y init reducesTo_S8192x1_S_d0_1 h_S_ k
      = init (Shape.Idx.first h_S_) + ∑ j : S8192x1.Idx, y j := by
  simp only [Host.reduceAdd, Ideal.hostReduceAdd_def]
  exact Ideal.hostReduceAdd_total reducesTo_S8192x1_S_d0_1 (fun b => b.elim0) y _ k

/-- After the region the result buffer holds the mean of the region's column: its sum over the `8192` rows divided
    by the row count. -/
theorem tail_value (W : Valuation τ sig (Elt Ideal)) :
    StableHlo.after (hostOps1 (F := Ideal)) W (Proc.devRef .tc main_v23)
      = fun _ => Ideal.div (∑ i : Fin 8192, (W (Proc.devRef .tc main_v19) : S8192x1.Idx → EReal) (ix2 i 0))
          Cert.Spec.rowsW := by
  show StableHlo.after (hostOps1 (F := Ideal)) W (Proc.devRef .tc main_v23) = _
  after_results
  generalize W (Proc.devRef .tc main_v19) = y
  funext k
  show FloatOps.hostDivf (Host.reduceAdd (F := Ideal) _ _ reducesTo_S8192x1_S_d0_1 h_S_ k) _ = _
  rw [sumAll, Ideal.hostDivf_def]
  unfold Cert.Spec.rowsW
  refine congrArg (fun s => Ideal.div s (Ideal.ofBits .f32 0x46000000#32)) ?_
  rw [show (constant (F := Ideal) S_ .f32 0x00000000#32) (Shape.Idx.first h_S_) = Ideal.ofBits .f32 0x00000000#32 from rfl,
    Cert.Consts.ofBits_zero, zero_add, sum_idx2]
  refine Finset.sum_congr rfl fun a _ => ?_
  rw [Fin.sum_univ_one]
  show (broadcastInDim S8192x1 ![] bcast_S_S8192x1 (constant (F := Ideal) S_ .f32 0x3F800000#32)) (ix2 a 0) * y (ix2 a 0) = _
  rw [broadcastInDim_apply _ bcast_S_S8192x1 _ (ix2 a 0) (fun t => t.elim0) (fun t => t.elim0)]
  show Ideal.ofBits .f32 0x3F800000#32 * _ = _
  rw [Cert.Consts.ofBits_one, one_mul]

end Cert.KernelTail

end
-- ==== Proof.KernelLoss.lean ====
/-
  What the kernel program returns, on the extended reals.

  The scalar the program leaves is the last host operation's value: the sum over the 8192 rows of the result
  array, over 8192. Row `r` of the result array is what grid point `r / 256` wrote: the positive-pair distance of
  row `r` plus `log (∑ j, exp (-dist r j) - exp (-dist r r))`, the distances those of the normalised rows. The
  positive-pair distance the host computed before the call is the distance between row `r` and its partner. So
  the scalar is the specification's loss of the normalised rows.
-/
import proofs.«144312_j54150947668039_2_alg».proof.Proof.KernelIdealRun
import proofs.«144312_j54150947668039_2_alg».proof.Proof.KernelBlocks
import proofs.«144312_j54150947668039_2_alg».proof.Proof.KernelPrefix
import proofs.«144312_j54150947668039_2_alg».proof.Proof.KernelTail

noncomputable section

namespace Cert.KernelValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The normalised rows as the reference names them, read as a matrix. -/
abbrev cfOf (c : Dev nD) : Fin 8192 → Fin 128 → EReal :=
  fun i d => Cert.ReferenceIdeal.Read.val_main_v4 (F := Ideal) (m ((c.tc : Thread nD τ).loc main_arg0)) (ix2 i d)

/-- The normalised rows the region reads are the matrix the reference names. -/
theorem cfArr_eq (c : Dev nD) : (fun i d => cfArr m c (ix2 i d)) = cfOf m c := by
  funext i d
  exact congrFun (cf_eq m c) (ix2 i d)

/-- Row `r` of the result array at the region's exit is the specification's loss of row `r`. -/
theorem row_eq (c : Dev nD) (r : Fin 8192) :
    (dats (F := Ideal) m 0 c).arrAt 3 cfg0.N (ix2 r 0) = Cert.Spec.rowLoss (fun i d => cfArr m c (ix2 i d)) r := by
  refine (arr_final_apply m c r).trans ?_
  rw [pd_eq m c r]
  rfl

/-- The program's scalar result is the specification's loss of the normalised rows. -/
theorem result_eq (c : Dev nD) : Vfin m c main_v23 = fun _ => Cert.Spec.loss (cfOf m c) := by
  have h1 : Vfin m c main_v23 = StableHlo.after (hostOps1 (F := Ideal)) (Wexit m c) (Proc.devRef .tc main_v23) := rfl
  refine h1.trans ((Cert.KernelTail.tail_value (Wexit m c)).trans ?_)
  funext _
  unfold Cert.Spec.loss
  refine congrArg (fun s => Ideal.div s Cert.Spec.rowsW) ?_
  refine Finset.sum_congr rfl fun r _ => ?_
  refine (congrFun (Wexit_out m c) (ix2 r 0)).trans ?_
  rw [← cfArr_eq m c]
  exact row_eq m c r

end Cert.KernelValue

end
-- ==== Proof.LseMath.lean ====
/-
  The real-number identity behind the reference's shifted log-sum-exp, and two small facts about finite sums and
  maxima of extended reals that are coercions of reals.
-/
import Idealize.ShloMosaic.PureOps.Ideal

noncomputable section

namespace Cert.LseMath

open scoped BigOperators

variable {ι : Type*} [Fintype ι] [DecidableEq ι]

/-- A finite sum of coercions of reals is the coercion of the sum. -/
theorem coe_sum (s : Finset ι) (f : ι → ℝ) : (∑ j ∈ s, ((f j : ℝ) : EReal)) = ((∑ j ∈ s, f j : ℝ) : EReal) := by
  induction s using Finset.induction_on with
  | empty => simp
  | insert a s ha ih => rw [Finset.sum_insert ha, Finset.sum_insert ha, ih, EReal.coe_add]

/-- The coercion of reals into the extended reals commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum, from `⊥`, of coercions of reals over a nonempty finite set is the coercion of a real. -/
theorem fold_max_coe (s : Finset ι) (hs : s.Nonempty) (f : ι → ℝ) :
    ∃ r : ℝ, s.fold max (⊥ : EReal) (fun j => ((f j : ℝ) : EReal)) = (r : EReal) := by
  induction hs using Finset.Nonempty.cons_induction with
  | singleton a => exact ⟨f a, by simp⟩
  | cons a s ha hs ih =>
    obtain ⟨r, hr⟩ := ih
    refine ⟨max (f a) r, ?_⟩
    rw [Finset.fold_cons, hr, coe_max]

/-- A sum against the indicator of one index picks that index's term. -/
theorem sum_ite_mul (p : ι) (f : ι → EReal) : (∑ j, (if j = p then (1 : EReal) else 0) * f j) = f p := by
  rw [Finset.sum_eq_single p]
  · simp
  · intro b _ hb; simp [hb]
  · intro h; exact absurd (Finset.mem_univ p) h

/-- The indicator of one index sums to one. -/
theorem sum_ite_one (p : ι) : (∑ j, (if j = p then (1 : EReal) else 0)) = 1 := by
  rw [Finset.sum_eq_single p]
  · simp
  · intro b _ hb; simp [hb]
  · intro h; exact absurd (Finset.mem_univ p) h

/-- A sum of real terms, each multiplied by the off-diagonal indicator (`0` at `i`, `1` elsewhere), is the sum
    of all the terms less the one at `i`. -/
theorem sum_mul_offdiag (i : ι) (f : ι → ℝ) :
    (∑ j, ((f j : ℝ) : EReal) * (if i = j then (0 : EReal) else 1)) = ((∑ j, f j - f i : ℝ) : EReal) := by
  have h : ∀ j, ((f j : ℝ) : EReal) * (if i = j then (0 : EReal) else 1) = (((if i = j then 0 else f j) : ℝ) : EReal) := by
    intro j; by_cases hj : i = j <;> simp [hj]
  rw [Finset.sum_congr rfl (fun j _ => h j), coe_sum]
  congr 1
  rw [← Finset.add_sum_erase Finset.univ f (Finset.mem_univ i), add_sub_cancel_left,
    ← Finset.add_sum_erase Finset.univ _ (Finset.mem_univ i), if_pos rfl, zero_add]
  refine Finset.sum_congr rfl fun j hj => ?_
  rw [if_neg (fun h => (Finset.ne_of_mem_erase hj) h.symm)]

/-- The shifted log-sum-exp identity. For distances `a j`, any shift `M` and offset `o`, an index `i` and another
    index `q ≠ i`: minus the shifted log-probability of `p` among the indices other than `i` is `a p` plus the
    logarithm of `∑ j, exp (0 - a j)` less the `i` term. -/
theorem neg_logsoftmax (a : ι → ℝ) (o M : ℝ) (i p q : ι) (hq : q ≠ i) :
    (-1 : ℝ) * (((o - a p) - M) - Real.log (∑ j, Real.exp ((o - a j) - M) - Real.exp ((o - a i) - M)))
      = a p + Real.log (∑ j, Real.exp (0 - a j) - Real.exp (0 - a i)) := by
  have hpos : 0 < ∑ j, Real.exp (0 - a j) - Real.exp (0 - a i) := by
    rw [← Finset.add_sum_erase Finset.univ _ (Finset.mem_univ i), add_sub_cancel_left]
    exact Finset.sum_pos (fun j _ => Real.exp_pos _) ⟨q, Finset.mem_erase.mpr ⟨hq, Finset.mem_univ q⟩⟩
  have hfac : ∑ j, Real.exp ((o - a j) - M) - Real.exp ((o - a i) - M)
      = Real.exp (o - M) * (∑ j, Real.exp (0 - a j) - Real.exp (0 - a i)) := by
    rw [mul_sub, Finset.mul_sum]
    congr 1
    · refine Finset.sum_congr rfl fun j _ => ?_
      rw [← Real.exp_add]; congr 1; ring
    · rw [← Real.exp_add]; congr 1; ring
  rw [hfac, Real.log_mul (Real.exp_pos _).ne' hpos.ne', Real.log_exp]
  ring

/-- A sum of positive terms less one of them is positive when there is another index. -/
theorem sum_sub_pos (f : ι → ℝ) (hf : ∀ j, 0 < f j) (i q : ι) (hq : q ≠ i) : 0 < ∑ j, f j - f i := by
  rw [← Finset.add_sum_erase Finset.univ _ (Finset.mem_univ i), add_sub_cancel_left]
  exact Finset.sum_pos (fun j _ => hf j) ⟨q, Finset.mem_erase.mpr ⟨hq, Finset.mem_univ q⟩⟩

end Cert.LseMath

end
-- ==== Proof.RefMask.lean ====
/-
  The reference's two constant masks, read at an index: the off-diagonal mask (`0` on the diagonal, `1` elsewhere)
  and the partner mask (`1` exactly at the other view of the row's sample, `0` elsewhere).
-/
import proofs.«144312_j54150947668039_2_alg».proof.Proof.Gen.ReferenceIdeal.Read
import proofs.«144312_j54150947668039_2_alg».proof.Proof.Consts
import proofs.«144312_j54150947668039_2_alg».proof.Proof.Spec

noncomputable section

namespace Cert.RefMask

open Cert.ReferenceIdeal Cert.ReferenceIdeal.Read Idealize.ShloMosaic Idealize.ShloMosaic.ValueIdx

/-- The integer comparison of two small iota values, converted to a float, is the indicator of their equality. -/
theorem eqMask (a b : ℕ) (ha : a < 8192) (hb : b < 8192) :
    FloatOps.uitofp (F := Ideal) .f32 (IntOp.cmpi .eq (IntOp.addi (BitVec.ofNat 32 a) 0#32) (BitVec.ofNat 32 b))
      = if a = b then (1 : EReal) else 0 := by
  have hiff : (BitVec.ofNat 32 a + 0#32 == BitVec.ofNat 32 b) = decide (a = b) := by
    rw [BitVec.add_zero]
    by_cases h : a = b
    · subst h; simp
    · have : BitVec.ofNat 32 a ≠ BitVec.ofNat 32 b := by
        intro e
        have := congrArg BitVec.toNat e
        rw [BitVec.toNat_ofNat, BitVec.toNat_ofNat, Nat.mod_eq_of_lt (by omega), Nat.mod_eq_of_lt (by omega)] at this
        exact h this
      simp [h, this]
  show (((BitVec.ofBool (BitVec.ofNat 32 a + 0#32 == BitVec.ofNat 32 b)).toNat : ℝ) : EReal) = _
  rw [hiff]
  by_cases h : a = b <;> simp [h]

/-- The identity matrix of size `8192` as floats. -/
theorem v33_apply (i j : Fin 8192) :
    val_main_v33 (F := Ideal) (ix2 i j) = if i.val = j.val then (1 : EReal) else 0 := by
  rw [val_main_v33_apply, val_main_v32_apply, val_main_v31_apply, val_main_v28_apply, val_main_v29_apply,
    val_main_v30_apply, val_main_c_4_apply]
  exact eqMask i.val j.val i.isLt j.isLt

/-- The off-diagonal mask. -/
theorem v35_apply (i j : Fin 8192) :
    val_main_v35 (F := Ideal) (ix2 i j) = if i = j then (0 : EReal) else 1 := by
  rw [val_main_v35_apply, val_main_v34_apply, val_main_cst_5_apply, v33_apply, Ideal.ofBits_def, Ideal.subf_def,
    Cert.Consts.ofBits_one]
  by_cases h : i = j
  · subst h
    rw [if_pos rfl, if_pos rfl, ← EReal.coe_one, ← EReal.coe_sub, sub_self, EReal.coe_zero]
  · have : i.val ≠ j.val := fun e => h (Fin.ext e)
    simp [h, this]

/-- The `4096` identity tiled twice along each axis: `1` exactly where the two coordinates agree modulo `4096`. -/
theorem v27_apply (i j : Fin 8192) :
    val_main_v27 (F := Ideal) (ix2 i j) = if i.val % 4096 = j.val % 4096 then (1 : EReal) else 0 := by
  rw [val_main_v27_apply, val_main_v26_apply, val_main_v25_apply, val_main_v24_apply, val_main_v23_apply,
    val_main_v22_apply, val_main_v19_apply, val_main_v20_apply, val_main_v21_apply, val_main_c_apply]
  have hi := i.isLt
  have hj := j.isLt
  have h0 : ((idx_main_v25 (idx_main_v26 (idx_main_v27 (ix2 i j)))) 0).val = i.val % 4096 := by
    show ((((0 * 4096 + (i.val * 8192 + j.val) / 8192 % 4096) * 1 + 0) * 4096 + (i.val * 8192 + j.val) % 4096) / 4096) = _
    omega
  have h1 : ((idx_main_v25 (idx_main_v26 (idx_main_v27 (ix2 i j)))) 1).val = j.val % 4096 := by
    show ((((0 * 4096 + (i.val * 8192 + j.val) / 8192 % 4096) * 1 + 0) * 4096 + (i.val * 8192 + j.val) % 4096) % 4096) = _
    omega
  rw [h0, h1]
  exact eqMask _ _ (by omega) (by omega)

/-- The partner mask. -/
theorem v36_apply (i j : Fin 8192) :
    val_main_v36 (F := Ideal) (ix2 i j) = if j = Cert.Spec.partner i then (1 : EReal) else 0 := by
  rw [val_main_v36_apply, Ideal.mulf_def, v27_apply, v35_apply]
  have hi := i.isLt
  have hj := j.isLt
  by_cases hp : j = Cert.Spec.partner i
  · have hv : j.val = (i.val + 4096) % 8192 := by rw [hp]; rfl
    have h1 : i.val % 4096 = j.val % 4096 := by omega
    have h2 : i ≠ j := fun e => by rw [e] at hv; omega
    rw [if_pos hp, if_pos h1, if_neg h2, one_mul]
  · rw [if_neg hp]
    by_cases h2 : i = j
    · rw [if_pos h2, mul_zero]
    · have h1 : ¬ i.val % 4096 = j.val % 4096 := by
        intro e
        apply hp
        apply Fin.ext
        show j.val = (i.val + 4096) % 8192
        have : i.val ≠ j.val := fun e' => h2 (Fin.ext e')
        omega
      rw [if_neg h1, zero_mul]

end Cert.RefMask

end
-- ==== Proof.RefStages.lean ====
/-
  The reference program stage by stage at an index, as coercions of real numbers, under the hypothesis that the
  normalised feature matrix is entry-wise real; and the specification's row loss as the same real number.
-/
import proofs.«144312_j54150947668039_2_alg».proof.Proof.Gen.ReferenceIdeal.Read
import proofs.«144312_j54150947668039_2_alg».proof.Proof.Consts
import proofs.«144312_j54150947668039_2_alg».proof.Proof.LseMath
import proofs.«144312_j54150947668039_2_alg».proof.Proof.RefMask
import proofs.«144312_j54150947668039_2_alg».proof.Proof.Spec

noncomputable section

namespace Cert.RefValue

open Cert.ReferenceIdeal Cert.ReferenceIdeal.Gen Cert.ReferenceIdeal.Read Idealize.ShloMosaic Idealize.ShloMosaic.ValueIdx Cert.LseMath
open scoped BigOperators

/-! ## The operations with corners, on coercions of reals -/

theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

theorem div_one (x : EReal) : Ideal.div x 1 = x := by
  simp [Ideal.div]

/-! ## The real quantities -/

/-- The inner product of rows `i` and `j`. -/
def gR (c : Fin 8192 → Fin 128 → ℝ) (i j : Fin 8192) : ℝ := ∑ d, c i d * c j d

/-- The clamped distance of rows `i` and `j`. -/
def dR (c : Fin 8192 → Fin 128 → ℝ) (e : ℝ) (i j : Fin 8192) : ℝ := Real.sqrt (max (2 - 2 * gR c i j) e)

/-- Row `i`'s loss. -/
def rowR (c : Fin 8192 → Fin 128 → ℝ) (e : ℝ) (i : Fin 8192) : ℝ :=
  dR c e i (Cert.Spec.partner i) + Real.log (∑ j, Real.exp (0 - dR c e i j) - Real.exp (0 - dR c e i i))

theorem partner_ne (i : Fin 8192) : Cert.Spec.partner i ≠ i := by
  intro h
  have hv : (i.val + 4096) % 8192 = i.val := congrArg Fin.val h
  have := i.isLt
  omega

/-! ## The specification on a real matrix -/

section SpecSide
variable (c : Fin 8192 → Fin 128 → ℝ) (e : ℝ) (he : 0 < e) (hw : Ideal.ofBits .f32 0x2B8CBCCC#32 = (e : EReal))

theorem gram_coe (i j : Fin 8192) :
    Cert.Spec.gram (fun i d => ((c i d : ℝ) : EReal)) i j = ((gR c i j : ℝ) : EReal) := by
  unfold Cert.Spec.gram gR
  rw [← coe_sum]
  refine Finset.sum_congr rfl fun d _ => ?_
  rw [EReal.coe_mul]

include he hw in
theorem distOf_gram (i j : Fin 8192) :
    Cert.Spec.distOf (Cert.Spec.gram (fun i d => ((c i d : ℝ) : EReal)) i j) = ((dR c e i j : ℝ) : EReal) := by
  rw [gram_coe]
  unfold Cert.Spec.distOf Cert.Spec.twoW Cert.Spec.epsW dR
  rw [Cert.Consts.ofBits_two, hw, ← EReal.coe_mul, ← EReal.coe_sub, ← coe_max, sqrt_coe (le_max_of_le_right he.le)]

include he hw in
theorem rowLoss_coe (i : Fin 8192) :
    Cert.Spec.rowLoss (fun i d => ((c i d : ℝ) : EReal)) i = ((rowR c e i : ℝ) : EReal) := by
  unfold Cert.Spec.rowLoss rowR
  simp only [distOf_gram c e he hw]
  have hx : ∀ j, Ideal.exp (0 - ((dR c e i j : ℝ) : EReal)) = ((Real.exp (0 - dR c e i j) : ℝ) : EReal) := fun j => by
    rw [← EReal.coe_zero, ← EReal.coe_sub]; rfl
  have hpos : 0 < ∑ j, Real.exp (0 - dR c e i j) - Real.exp (0 - dR c e i i) :=
    sum_sub_pos (fun j => Real.exp (0 - dR c e i j)) (fun j => Real.exp_pos _) i _ (partner_ne i)
  simp only [hx]
  rw [coe_sum, ← EReal.coe_sub, log_coe hpos, ← EReal.coe_add]

end SpecSide

/-! ## The reference's stages on a real matrix -/

section Stages
variable (x0 : (⟨S4096x2x128, .f32⟩ : BufTy).Contents (Elt Ideal))
  (c : Fin 8192 → Fin 128 → ℝ) (hc : ∀ i d, val_main_v4 (F := Ideal) x0 (ix2 i d) = ((c i d : ℝ) : EReal))
  (e : ℝ) (he : 0 < e) (hw : Ideal.ofBits .f32 0x2B8CBCCC#32 = (e : EReal))

include hc in
/-- The Gram matrix. -/
theorem v6_coe (i j : Fin 8192) : val_main_v6 (F := Ideal) x0 (ix2 i j) = ((gR c i j : ℝ) : EReal) := by
  rw [val_main_v6_apply]
  unfold gR
  rw [← coe_sum]
  refine Finset.sum_congr rfl fun k _ => ?_
  rw [val_main_v5_apply,
    show lidx_main_v6 (ix2 i j) k = ix2 i k from funext fun a => by match a with | ⟨0, _⟩ => rfl | ⟨1, _⟩ => rfl,
    show idx_main_v5 (ridx_main_v6 (ix2 i j) k) = ix2 j k from funext fun a => by match a with | ⟨0, _⟩ => rfl | ⟨1, _⟩ => rfl,
    hc, hc, EReal.coe_mul]

include hc in
/-- `2 - 2·g`. -/
theorem v10_coe (i j : Fin 8192) :
    val_main_v10 (F := Ideal) x0 (ix2 i j) = ((2 - 2 * gR c i j : ℝ) : EReal) := by
  rw [val_main_v10_apply, val_main_v9_apply, val_main_cst_0_apply, val_main_v8_apply, val_main_v7_apply,
    val_main_cst_apply, v6_coe x0 c hc]
  simp only [Ideal.subf_def, Ideal.mulf_def, Ideal.ofBits_def]
  rw [Cert.Consts.ofBits_two, ← EReal.coe_mul, ← EReal.coe_sub]

include hc he hw in
/-- The clamped distance. -/
theorem v12_coe (i j : Fin 8192) : val_main_v12 (F := Ideal) x0 (ix2 i j) = ((dR c e i j : ℝ) : EReal) := by
  rw [val_main_v12_apply, val_main_v11_apply, val_main_call1_v1_apply, val_main_call1_v0_apply, val_main_cst_1_apply,
    v10_coe x0 c hc]
  simp only [Ideal.hostUnary_sqrt_def, Ideal.maximumf_def, Ideal.ofBits_def]
  unfold dR
  rw [hw, ← coe_max, max_comm, sqrt_coe (le_max_of_le_right he.le)]

include hc he hw in
/-- One minus the distance. -/
theorem v14_coe (i j : Fin 8192) : val_main_v14 (F := Ideal) x0 (ix2 i j) = ((1 - dR c e i j : ℝ) : EReal) := by
  rw [val_main_v14_apply, val_main_v13_apply, val_main_cst_2_apply, v12_coe x0 c hc e he hw]
  simp only [Ideal.subf_def, Ideal.ofBits_def]
  rw [Cert.Consts.ofBits_one, ← EReal.coe_one, ← EReal.coe_sub]

include hc he hw in
/-- … at any index. -/
theorem v14_coe' (k : S8192x8192.Idx) :
    val_main_v14 (F := Ideal) x0 k = ((1 - dR c e (k 0) (k 1) : ℝ) : EReal) := by
  exact (congrArg (val_main_v14 (F := Ideal) x0) (eq_ix2 k)).trans (v14_coe x0 c hc e he hw (k 0) (k 1))

include hc he hw in
/-- The row maximum is a real number (which one does not matter below). -/
theorem v15_real (i : Fin 8192) : ∃ M : ℝ, val_main_v15 (F := Ideal) x0 (ix1 i) = (M : EReal) := by
  unfold val_main_v15
  have h : S8192x8192.Reduces [1] S8192 := by decide
  rw [Host.reduce_eq_fold_single FloatOps.maximumf _ _ reducesTo_S8192x8192_S8192_d1 h h_S_ (ix1 i)]
  have hf : (val_main_v14 (F := Ideal) x0 ∘ h.lift (ix1 i))
      = fun k => ((1 - dR c e (h.lift (ix1 i) k 0) (h.lift (ix1 i) k 1) : ℝ) : EReal) :=
    funext fun k => v14_coe' x0 c hc e he hw _
  rw [hf, val_main_cst_3_apply, Ideal.ofBits_def, Cert.Consts.ofBits_negInf]
  exact fold_max_coe Finset.univ ⟨⟨0, by decide⟩, Finset.mem_univ _⟩ _

include hc he hw in
/-- Row `i`'s negated masked mean of the shifted log-probabilities is the row's loss. -/
theorem v49_coe (i : Fin 8192) : val_main_v49 (F := Ideal) x0 (ix1 i) = ((rowR c e i : ℝ) : EReal) := by
  obtain ⟨M, hM⟩ := v15_real x0 c hc e he hw i
  have h18 : ∀ j, val_main_v18 (F := Ideal) x0 (ix2 i j) = (((1 - dR c e i j) - M : ℝ) : EReal) := by
    intro j
    rw [val_main_v18_apply, v14_coe x0 c hc e he hw, val_main_v17_apply, val_main_v16_apply,
      show idx_main_v16 (idx_main_v17 (ix2 i j)) = ix1 i from funext fun a => by match a with | ⟨0, _⟩ => rfl, hM]
    simp only [Ideal.subf_def]
    rw [← EReal.coe_sub]
  have h39 : val_main_v39 (F := Ideal) x0 (ix1 i)
      = ((∑ j, Real.exp ((1 - dR c e i j) - M) - Real.exp ((1 - dR c e i i) - M) : ℝ) : EReal) := by
    rw [val_main_v39_apply, val_main_cst_6_apply, Ideal.ofBits_def, Cert.Consts.ofBits_zero, zero_add,
      ← sum_mul_offdiag i (fun j => Real.exp ((1 - dR c e i j) - M))]
    refine Finset.sum_congr rfl fun k _ => ?_
    rw [show idx_main_v39 (ix1 i) k = ix2 i k from funext fun a => by match a with | ⟨0, _⟩ => rfl | ⟨1, _⟩ => rfl,
      val_main_v38_apply, val_main_v37_apply, h18, Cert.RefMask.v35_apply]
    rfl
  have hSpos : 0 < ∑ j, Real.exp ((1 - dR c e i j) - M) - Real.exp ((1 - dR c e i i) - M) :=
    sum_sub_pos (fun j => Real.exp ((1 - dR c e i j) - M)) (fun j => Real.exp_pos _) i _ (partner_ne i)
  have h43 : ∀ j, val_main_v43 (F := Ideal) x0 (ix2 i j)
      = ((((1 - dR c e i j) - M)
          - Real.log (∑ j, Real.exp ((1 - dR c e i j) - M) - Real.exp ((1 - dR c e i i) - M)) : ℝ) : EReal) := by
    intro j
    rw [val_main_v43_apply, h18, val_main_v42_apply, val_main_v41_apply, val_main_v40_apply,
      show idx_main_v40 (idx_main_v42 (ix2 i j)) = ix1 i from funext fun a => by match a with | ⟨0, _⟩ => rfl, h39]
    simp only [Ideal.subf_def, Ideal.hostUnary_log_def]
    rw [log_coe hSpos, ← EReal.coe_sub]
  have h45 : val_main_v45 (F := Ideal) x0 (ix1 i) = val_main_v43 (F := Ideal) x0 (ix2 i (Cert.Spec.partner i)) := by
    rw [val_main_v45_apply, val_main_cst_7_apply, Ideal.ofBits_def, Cert.Consts.ofBits_zero, zero_add,
      ← sum_ite_mul (Cert.Spec.partner i) (fun j => val_main_v43 (F := Ideal) x0 (ix2 i j))]
    refine Finset.sum_congr rfl fun k _ => ?_
    rw [show idx_main_v45 (ix1 i) k = ix2 i k from funext fun a => by match a with | ⟨0, _⟩ => rfl | ⟨1, _⟩ => rfl,
      val_main_v44_apply, Cert.RefMask.v36_apply]
    rfl
  have h46 : val_main_v46 (F := Ideal) (ix1 i) = 1 := by
    rw [val_main_v46_apply, val_main_cst_8_apply, Ideal.ofBits_def, Cert.Consts.ofBits_zero, zero_add,
      ← sum_ite_one (Cert.Spec.partner i)]
    refine Finset.sum_congr rfl fun k _ => ?_
    rw [show idx_main_v46 (ix1 i) k = ix2 i k from funext fun a => by match a with | ⟨0, _⟩ => rfl | ⟨1, _⟩ => rfl,
      Cert.RefMask.v36_apply]
  rw [val_main_v49_apply, val_main_v48_apply, val_main_cst_9_apply, val_main_v47_apply, h45, h46, h43]
  simp only [Ideal.mulf_def, Ideal.hostDivf_def, Ideal.ofBits_def]
  rw [div_one, Cert.Consts.ofBits_negOne, ← EReal.coe_mul,
    neg_logsoftmax (dR c e i) 1 M i (Cert.Spec.partner i) (Cert.Spec.partner i) (partner_ne i)]
  rfl

end Stages

end Cert.RefValue

end
-- ==== Proof.RefValue.lean ====
/-
  The reference program's result is the specification's loss of the normalised feature matrix, whenever that matrix
  is entry-wise a real number.
-/
import proofs.«144312_j54150947668039_2_alg».proof.Proof.RefStages

noncomputable section

namespace Cert.RefValue

open Cert.ReferenceIdeal Cert.ReferenceIdeal.Gen Cert.ReferenceIdeal.Read Idealize.ShloMosaic Idealize.ShloMosaic.ValueIdx Cert.LseMath
open scoped BigOperators

/-- A sum over `8192` rows, taken as two blocks of `4096`. -/
theorem sum_two_by_4096 (f : Fin 8192 → EReal) :
    (∑ a : Fin 2, ∑ b : Fin 4096, f ⟨a.val * 4096 + b.val, by have := a.isLt; have := b.isLt; omega⟩)
      = ∑ i : Fin 8192, f i := by
  rw [← Equiv.sum_comp (finProdFinEquiv (m := 2) (n := 4096)) f, Fintype.sum_prod_type]
  refine Finset.sum_congr rfl fun a _ => Finset.sum_congr rfl fun b _ => ?_
  exact congrArg f (Fin.ext (by show a.val * 4096 + b.val = b.val + 4096 * a.val; omega))

/-- The reference's result is the loss of the normalised feature matrix. -/
theorem ref_eq_loss (x0 : (⟨S4096x2x128, .f32⟩ : BufTy).Contents (Elt Ideal))
    (hfin : ∀ i : S8192x128.Idx, ∃ r : ℝ, val_main_v4 (F := Ideal) x0 i = (r : EReal)) :
    val_main_v52 (F := Ideal) x0
      = fun _ => Cert.Spec.loss (fun i d => val_main_v4 (F := Ideal) x0 (ix2 i d)) := by
  choose c0 hc0 using hfin
  obtain ⟨e, he, hw⟩ := Cert.Consts.ofBits_eps
  have hc : ∀ (i : Fin 8192) (d : Fin 128),
      val_main_v4 (F := Ideal) x0 (ix2 i d) = (((fun i d => c0 (ix2 i d)) i d : ℝ) : EReal) := fun i d => hc0 _
  have hcE : (fun (i : Fin 8192) (d : Fin 128) => val_main_v4 (F := Ideal) x0 (ix2 i d))
      = fun i d => (((fun i d => c0 (ix2 i d)) i d : ℝ) : EReal) := funext fun i => funext fun d => hc i d
  funext k
  show val_main_v52 (F := Ideal) x0 k = Cert.Spec.loss (fun i d => val_main_v4 (F := Ideal) x0 (ix2 i d))
  rw [val_main_v52_apply, val_main_cst_11_apply, val_main_v51_apply, val_main_cst_10_apply, Ideal.ofBits_def,
    Ideal.ofBits_def, Cert.Consts.ofBits_zero, zero_add, Ideal.hostDivf_def, hcE]
  unfold Cert.Spec.loss Cert.Spec.rowsW
  refine congrArg (fun s => Ideal.div s (Ideal.ofBits .f32 0x46000000#32)) ?_
  rw [sum_idx2, ← sum_two_by_4096]
  refine Finset.sum_congr rfl fun a _ => Finset.sum_congr rfl fun b _ => ?_
  rw [val_main_v50_apply, rowLoss_coe _ e he hw, ← v49_coe x0 _ hc e he hw]
  exact congrArg _ (funext fun t => by match t with | ⟨0, _⟩ => rfl)

end Cert.RefValue

end
-- ==== Proof.PreDecode.lean ====
/-
  The precondition read back. The predicate says two things of the input array: every entry's absolute value is
  below `+∞`, and every row's sum of squares is above `0`. Read at an index, the first says every entry is a real
  number (the two infinities fail `|x| < ⊤`), the second is the strict inequality itself.
-/
import proofs.«144312_j54150947668039_2_alg».proof.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.PreDecode

open Idealize.ShloMosaic Idealize.ShloMosaic.ValueIdx Cert.Pre_finite_inputs

variable [Cert.Pre_finite_inputs.Facts]

instance : Subsingleton S_.Idx := ⟨fun a b => funext fun d => d.elim0⟩

/-- A comparison `<` that came out true is the strict inequality. -/
theorem lt_of_cmp_olt {x y : EReal} (h : Ideal.cmp .olt x y = 1#1) : x < y := by
  by_contra hn
  simp [Ideal.cmp, hn] at h

/-- A comparison `>` that came out true is the strict inequality. -/
theorem lt_of_cmp_ogt {x y : EReal} (h : Ideal.cmp .ogt x y = 1#1) : y < x := by
  by_contra hn
  simp [Ideal.cmp, hn] at h

/-- The precondition, decoded: every entry is a real number and every row's sum of squares is positive. -/
theorem decode (x0 : FVec Ideal S4096x2x128 .f32)
    (h : Cert.Pre_finite_inputs.fn (F := Ideal) x0 = fun _ => 1#1) :
    (∀ i : S4096x2x128.Idx, ∃ r : ℝ, x0 i = (r : EReal)) ∧
      (∀ (b : Fin 4096) (v : Fin 2), (0 : EReal) < ∑ d : Fin 128, x0 (ix3 b v d) * x0 (ix3 b v d)) := by
  have h0 := congrFun h ix0
  dsimp only [Cert.Pre_finite_inputs.fn] at h0
  obtain ⟨h1, h2⟩ := IntOp.andi_eq_one.1 h0
  refine ⟨fun i => ?_, fun b v => ?_⟩
  · have e := Host.reduce_andi_all _ _ _ _ _ h1 i
    have e' : Ideal.cmp .olt (max (x0 i) (-(x0 i))) (Ideal.ofBits .f32 0x7F800000#32) = 1#1 := e
    have htop : Ideal.ofBits .f32 0x7F800000#32 = ⊤ := by simp [Ideal.ofBits, Ideal.ieee]
    rw [htop] at e'
    have hlt : max (x0 i) (-(x0 i)) < ⊤ := lt_of_cmp_olt e'
    induction hx : x0 i using EReal.rec with
    | bot => rw [hx] at hlt; simp at hlt
    | top => rw [hx] at hlt; simp at hlt
    | coe r => exact ⟨r, rfl⟩
  · have e := Host.reduce_andi_all _ _ _ _ _ h2 (ix2 b v)
    have e' : Ideal.cmp .ogt (Ideal.hostReduceAdd Facts.reducesTo_S4096x2x128_S4096x2_d2 (fun j => x0 j * x0 j)
        (Ideal.ofBits .f32 0x00000000#32) (ix2 b v)) (Ideal.ofBits .f32 0x00000000#32) = 1#1 := e
    rw [Ideal.hostReduceAdd_single Facts.reducesTo_S4096x2x128_S4096x2_d2 (by decide), Ideal.ofBits_zero_f32, zero_add] at e'
    have hlt := lt_of_cmp_ogt e'
    refine lt_of_lt_of_eq hlt (Finset.sum_congr rfl fun k _ => ?_)
    have hk : Shape.Reduces.lift (s := S4096x2x128) (t := S4096x2) (a := 2) (by decide) (ix2 b v) k = ix3 b v k :=
      funext fun a => Fin.ext (by match a with | ⟨0, _⟩ => rfl | ⟨1, _⟩ => rfl | ⟨2, _⟩ => rfl)
    rw [hk]
    rfl

end Cert.PreDecode

end
-- ==== Proof.CfFinite.lean ====
/-
  The normalised rows are real numbers. Row `r` of the `[8192,128]` array is `x (r % 4096, r / 4096, ·)`; its entries
  are real and its sum of squares `S` is a positive real, so `√S` is a positive real and each quotient
  `x / √S` is a real number.
-/
import proofs.«144312_j54150947668039_2_alg».proof.Proof.Gen.ReferenceIdeal.Read
import Idealize.ShloMosaic.Lib.IdealHost
import Idealize.ShloMosaic.Lib.ValueIdx
import Idealize.ShloMosaic.PureOps.Ideal.Laws

noncomputable section

namespace Cert.CfFinite

open Idealize.ShloMosaic Idealize.ShloMosaic.ValueIdx Cert.ReferenceIdeal Cert.ReferenceIdeal.Read

variable [Cert.ReferenceIdeal.Facts]

/-- A finite sum of real numbers, read in the extended reals, is the sum of the readings. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The quotient of a real by the square root of a positive real is a real. -/
theorem div_sqrt_real (a S : ℝ) (hS : 0 < S) : ∃ r : ℝ, Ideal.div (a : EReal) (Ideal.sqrt (S : EReal)) = (r : EReal) := by
  have hs : Real.sqrt S ≠ 0 := (Real.sqrt_pos.2 hS).ne'
  rw [Ideal.sqrt_coe, if_neg (not_lt.2 hS.le), Ideal.div_coe hs, ← EReal.coe_mul]
  exact ⟨_, rfl⟩

/-- Entry `(r, d)` of the reshaped transpose is `x (r % 4096, r / 4096, d)`. -/
theorem row_idx (i : S8192x128.Idx) (k : Fin 128) :
    idx_main_v0 (idx_main_v1 (idx_main_call0_v1 (idx_main_call0_v2 (idx_main_v3 i)) k))
      = ix3 (⟨(i 0).val % 4096, Nat.mod_lt _ (by norm_num)⟩ : Fin 4096)
          (⟨(i 0).val / 4096, by have h : (i 0).val < 8192 := (i 0).isLt; show (i 0).val / 4096 < 2; omega⟩ : Fin 2) k := by
  have h0 : (i 0).val < 8192 := (i 0).isLt
  have hk : k.val < 128 := k.isLt
  funext a
  match a with
  | ⟨0, _⟩ => exact Fin.ext (by show ((i 0).val * 128 + k.val) / 128 % 4096 = (i 0).val % 4096; omega)
  | ⟨1, _⟩ => exact Fin.ext (by show ((i 0).val * 128 + k.val) / 524288 = (i 0).val / 4096; omega)
  | ⟨2, _⟩ => exact Fin.ext (by show ((i 0).val * 128 + k.val) % 128 = k.val; omega)

/-- Every entry of the row-normalised array is a real number. -/
theorem cf_real (x0 : (⟨S4096x2x128, .f32⟩ : BufTy).Contents (Elt Ideal))
    (hfin : ∀ i : S4096x2x128.Idx, ∃ r : ℝ, x0 i = (r : EReal))
    (hpos : ∀ (b : Fin 4096) (v : Fin 2), (0 : EReal) < ∑ d : Fin 128, x0 (ix3 b v d) * x0 (ix3 b v d)) :
    ∀ i : S8192x128.Idx, ∃ r : ℝ, val_main_v4 (F := Ideal) x0 i = (r : EReal) := by
  intro i
  choose f hf using hfin
  rw [val_main_v4_apply, val_main_v3_apply, val_main_v2_apply, val_main_call0_v2_apply, val_main_call0_v1_apply]
  simp only [val_main_call0_v0_apply, val_main_v1_apply, val_main_v0_apply, val_main_call0_cst_apply, row_idx]
  simp only [Ideal.hostDivf_def, Ideal.hostUnary_sqrt_def, Ideal.ofBits_def, Ideal.mulf_def, Ideal.ofBits_zero_f32, zero_add]
  have hp := hpos ⟨(i 0).val % 4096, Nat.mod_lt _ (by norm_num)⟩
    ⟨(i 0).val / 4096, by have h : (i 0).val < 8192 := (i 0).isLt; show (i 0).val / 4096 < 2; omega⟩
  simp only [hf, ← EReal.coe_mul, ← coe_sum] at hp ⊢
  exact div_sqrt_real _ _ (EReal.coe_pos.1 hp)

end Cert.CfFinite

end
-- ==== Proof.lean ====
/-
  A supervised-contrastive loss over 8192 rows (4096 samples, two views each, 128 features), computed two ways.

  Both programs stack the two views, divide every row by its Euclidean norm, and form clamped distances
  `d i j = √(max (2 - 2·⟨c i, c j⟩) ε)` between normalised rows. The reference builds the whole 8192 × 8192 matrix of
  `1 - d i j`, subtracts each row's maximum `M i`, exponentiates, masks out the diagonal, and takes
  `-( (1 - d i p - M i) - log ∑_{j ≠ i} exp (1 - d i j - M i) )` at the one positive `p` of row `i` (its other view);
  the kernel sums `exp (-d i j)` over a whole row, subtracts the diagonal term, and returns
  `d i p + log (∑ j, exp (-d i j) - exp (-d i i))`. Both average over the rows. On real numbers the shift `1 - M i`
  cancels between the two logarithms and the masked sum is the full sum less its diagonal term, so the two are equal.

  On the EXTENDED reals that cancellation needs every distance to be a real number, which it is exactly when no row
  of the input is zero: a zero row makes the normalisation `0 / 0`. The precondition therefore says that the input is
  finite and that every row has a positive sum of squares; under it every entry of the normalised matrix is a real
  number (`CfFinite`), and the reference's result is the loss the specification states (`RefValue`). The kernel's
  result is that loss for any input at all (`KernelLoss`): its grid of 32 points writes row by row what the
  specification's row loss says (`KernelBlocks`, `Payload`), and the host operations around the call are read off
  as values (`KernelPrefix`, `KernelTail`).

  The kernel reads the normalised matrix through two windows — a 256-row query block and the whole matrix as keys —
  so the pipeline holds that one array as two half shares; `KernelIdealRun` (and `KernelRun`, the same text at the
  word-level instance) proves from that the run of the whole program: it terminates, nothing faults, the argument is
  unchanged, and the result is the last host operation's value.
-/
import proofs.«144312_j54150947668039_2_alg».proof.Defs
import proofs.«144312_j54150947668039_2_alg».proof.Proof.Gen.Kernel
import proofs.«144312_j54150947668039_2_alg».proof.Proof.Gen.Kernel.Skeleton
import proofs.«144312_j54150947668039_2_alg».proof.Proof.Gen.Kernel.Launch
import proofs.«144312_j54150947668039_2_alg».proof.Proof.Gen.Kernel.Points
import proofs.«144312_j54150947668039_2_alg».proof.Proof.Gen.KernelIdeal
import proofs.«144312_j54150947668039_2_alg».proof.Proof.Gen.KernelIdeal.Skeleton
import proofs.«144312_j54150947668039_2_alg».proof.Proof.Gen.KernelIdeal.Launch
import proofs.«144312_j54150947668039_2_alg».proof.Proof.Gen.KernelIdeal.Points
import proofs.«144312_j54150947668039_2_alg».proof.Proof.Gen.ReferenceIdeal
import proofs.«144312_j54150947668039_2_alg».proof.Proof.Gen.ReferenceIdeal.Run
import proofs.«144312_j54150947668039_2_alg».proof.Proof.Gen.ReferenceIdeal.Read
import proofs.«144312_j54150947668039_2_alg».proof.Proof.Gen.Pre_finite_inputs
import proofs.«144312_j54150947668039_2_alg».proof.Proof.KernelRun
import proofs.«144312_j54150947668039_2_alg».proof.Proof.KernelIdealRun
import proofs.«144312_j54150947668039_2_alg».proof.Proof.KernelLoss
import proofs.«144312_j54150947668039_2_alg».proof.Proof.RefValue
import proofs.«144312_j54150947668039_2_alg».proof.Proof.PreDecode
import proofs.«144312_j54150947668039_2_alg».proof.Proof.CfFinite
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its argument unchanged. -/
theorem frame_p : Cert.frame_Kernel := fun m ρ _ => Cert.Kernel.Hand.frame m ρ

/-- So does its reading on the extended reals. -/
theorem frame_pi : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the argument, both programs end at the specification's loss of the normalised rows:
    the kernel for any input, the reference because under the precondition every normalised entry is a real number. -/
theorem algebraic : Cert.algebraic_KernelIdeal_ReferenceIdeal := by
  intro m ρ m' ρ' hpre hagree
  refine ⟨fun c => fun _ => Cert.Spec.loss (Cert.KernelValue.cfOf m c), ?_, ?_⟩
  · exact (θ_run Cert.KernelIdeal.defs _ _).mono
      (fun _ h c => ⟨(h c).1.trans (Cert.KernelValue.result_eq m c),
        (h c).2.trans (Cert.KernelIdeal.Hand.Vfin_arg0 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, hagree c]
    have hd := Cert.PreDecode.decode _ (hpre c)
    exact Cert.RefValue.ref_eq_loss _ (Cert.CfFinite.cf_real _ hd.1 hd.2)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
